-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg12 : FVec F S128x256 .f32) (main_arg13 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S32x64 .f32) (main_arg9 : FVec F S64 .f32) (main_arg10 : FVec F S64x128 .f32) (main_arg11 : FVec F S128 .f32) (main_arg12 : FVec F S128x256 .f32) (main_arg13 : FVec F S256 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S64 .f32) (main_arg6 : FVec F S64x32 .f32) (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) (main_arg6 : FVec F S64x32 .f32) (main_arg7 : FVec F S32 .f32) (main_arg8 : FVec F S32x64 .f32) (main_arg9 : FVec F S64 .f32) (main_arg10 : FVec F S64x128 .f32) (main_arg11 : FVec F S128 .f32) (main_arg12 : FVec F S128x256 .f32) (main_arg13 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S1x256 : Shape := ⟨2, ![1, 256]⟩

abbrev nBuf : Space → Nat
  | .hbm => 127
  | .vmem => 25
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x128, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S850000x1, .f32⟩
  | .hbm, ⟨65, _⟩ => ⟨S850000x128, .f32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x64, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x64, .f32⟩
  | .hbm, ⟨87, _⟩ => ⟨S850000x1, .f32⟩
  | .hbm, ⟨88, _⟩ => ⟨S850000x64, .f32⟩
  | .hbm, ⟨89, _⟩ => ⟨S850000x64, .f32⟩
  | .hbm, ⟨90, _⟩ => ⟨S_, .f32⟩
  | .hbm, ⟨91, _⟩ => ⟨S50000x64, .f32⟩
  | .hbm, ⟨92, _⟩ => ⟨S850000x1, .i32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000x64, .f32⟩
  | .hbm, ⟨99, _⟩ => ⟨S50000x64, .f32⟩
  | .hbm, ⟨100, _⟩ => ⟨S50000x32, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x32, .f32⟩
  | .hbm, ⟨110, _⟩ => ⟨S850000x1, .f32⟩
  | .hbm, ⟨111, _⟩ => ⟨S850000x32, .f32⟩
  | .hbm, ⟨112, _⟩ => ⟨S850000x32, .f32⟩
  | .hbm, ⟨113, _⟩ => ⟨S_, .f32⟩
  | .hbm, ⟨114, _⟩ => ⟨S50000x32, .f32⟩
  | .hbm, ⟨115, _⟩ => ⟨S850000x1, .i32⟩
  | .hbm, ⟨116, _⟩ => ⟨S50000x32, .f32⟩
  | .hbm, ⟨117, _⟩ => ⟨S1x32, .f32⟩
  | .hbm, ⟨118, _⟩ => ⟨S50000x32, .f32⟩
  | .hbm, ⟨119, _⟩ => ⟨S50000x32, .f32⟩
  | .hbm, ⟨120, _⟩ => ⟨S_, .f32⟩
  | .hbm, ⟨121, _⟩ => ⟨S50000x32, .f32⟩
  | .hbm, ⟨122, _⟩ => ⟨S50000x32, .f32⟩
  | .hbm, ⟨123, _⟩ => ⟨S1x64, .f32⟩
  | .hbm, ⟨124, _⟩ => ⟨S1x128, .f32⟩
  | .hbm, ⟨125, _⟩ => ⟨S1x256, .f32⟩
  | .hbm, ⟨126, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S32x64, .f32⟩
  | .local _ .vmem, ⟨18, _⟩ => ⟨S1x64, .f32⟩
  | .local _ .vmem, ⟨19, _⟩ => ⟨S64x128, .f32⟩
  | .local _ .vmem, ⟨20, _⟩ => ⟨S1x128, .f32⟩
  | .local _ .vmem, ⟨21, _⟩ => ⟨S128x256, .f32⟩
  | .local _ .vmem, ⟨22, _⟩ => ⟨S1x256, .f32⟩
  | .local _ .vmem, ⟨23, _⟩ => ⟨S5000x256, .f32⟩
  | .local _ .vmem, ⟨24, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩
abbrev main_v66 : Ref sig .tc := ⟨.hbm, 100, rfl⟩
abbrev main_c_12 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call3_cst : Ref sig .tc := ⟨.hbm, 120, rfl⟩
abbrev main_call3_v0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc3_stg7_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem7_0 : DmaSem sig := 23
abbrev cc3_sem7_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S64_S1x64 : S64.ShapeCasts S1x64
  shapeCasts_S128_S1x128 : S128.ShapeCasts S1x128
  shapeCasts_S256_S1x256 : S256.ShapeCasts S1x256
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x64_S5000x64_1_0_0_1_n_n_wf : DotDims.WF S5000x32 S32x64 S5000x64 [1] [0] [0] [1] [] []
  dot_S5000x64_S64x128_S5000x128_1_0_0_1_n_n_wf : DotDims.WF S5000x64 S64x128 S5000x128 [1] [0] [0] [1] [] []
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .f32 = 32 ∨ (Rect.block (s := S128x256) S128x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x256.size a ≤ S50000x256.size a
  hwx3_7 : ∀ i : grid3.Coords, EltTy.bits .f32 = 32 ∨ (Rect.block (s := S50000x256) S5000x256.size (cc3_transform_7 i) (hinb3_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v86) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v87) S5000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x128 : Shape := ⟨2, ![64, 128]⟩
abbrev S128x256 : Shape := ⟨2, ![128, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S1x256 : Shape := ⟨2, ![1, 256]⟩

abbrev nBuf : Space → Nat
  | .hbm => 207
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S64x32, .f32⟩
  | 7 => ⟨S32, .f32⟩
  | 8 => ⟨S32x64, .f32⟩
  | 9 => ⟨S64, .f32⟩
  | 10 => ⟨S64x128, .f32⟩
  | 11 => ⟨S128, .f32⟩
  | 12 => ⟨S128x256, .f32⟩
  | 13 => ⟨S256, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S50000x128, .f32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x64, .f32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x256, .f32⟩

abbrev hbmTy0_1 (i : Nat) : BufTy := match i % 128 with
  | 0 => ⟨S50000x64, .f32⟩
  | 1 => ⟨S50000x64, .f32⟩
  | 2 => ⟨S_, .f32⟩
  | 3 => ⟨S50000x64, .f32⟩
  | 4 => ⟨S50000x64, .f32⟩
  | 5 => ⟨S50000x32, .f32⟩
  | 6 => ⟨S_, .f32⟩
  | 7 => ⟨S850000, .f32⟩
  | 8 => ⟨S_, .f32⟩
  | 9 => ⟨S50000, .f32⟩
  | 10 => ⟨S850000x1, .i32⟩
  | 11 => ⟨S50000, .f32⟩
  | 12 => ⟨S_, .f32⟩
  | 13 => ⟨S50000, .f32⟩
  | 14 => ⟨S50000, .i1⟩
  | 15 => ⟨S50000, .f32⟩
  | 16 => ⟨S_, .f32⟩
  | 17 => ⟨S_, .f32⟩
  | 18 => ⟨S50000, .f32⟩
  | 19 => ⟨S50000, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x32, .f32⟩
  | 48 => ⟨S850000x1, .f32⟩
  | 49 => ⟨S850000x32, .f32⟩
  | 50 => ⟨S850000x32, .f32⟩
  | 51 => ⟨S_, .f32⟩
  | 52 => ⟨S50000x32, .f32⟩
  | 53 => ⟨S850000x1, .i32⟩
  | 54 => ⟨S50000x32, .f32⟩
  | 55 => ⟨S1x32, .f32⟩
  | 56 => ⟨S50000x32, .f32⟩
  | 57 => ⟨S50000x32, .f32⟩
  | 58 => ⟨S_, .f32⟩
  | 59 => ⟨S50000x32, .f32⟩
  | 60 => ⟨S50000x32, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x256, .f32⟩
  | 76 => ⟨S1x256, .f32⟩
  | 77 => ⟨S50000x256, .f32⟩
  | 78 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v56 : Ref sig .tc := ⟨.hbm, 91, rfl⟩
abbrev main_c_13 : Ref sig .tc := ⟨.hbm, 92, rfl⟩
abbrev main_v57 : Ref sig .tc := ⟨.hbm, 93, rfl⟩
abbrev main_v58 : Ref sig .tc := ⟨.hbm, 94, rfl⟩
abbrev main_c_14 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_15 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_17 : Ref sig .tc := ⟨.hbm, 111, rfl⟩
abbrev main_v72 : Ref sig .tc := ⟨.hbm, 112, rfl⟩
abbrev main_v73 : Ref sig .tc := ⟨.hbm, 113, rfl⟩
abbrev main_c_18 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_19 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_call3_cst : Ref sig .tc := ⟨.hbm, 130, rfl⟩
abbrev main_call3_v0 : Ref sig .tc := ⟨.hbm, 131, rfl⟩
abbrev main_v88 : Ref sig .tc := ⟨.hbm, 132, rfl⟩
abbrev main_v89 : Ref sig .tc := ⟨.hbm, 133, rfl⟩
abbrev main_cst_20 : Ref sig .tc := ⟨.hbm, 134, rfl⟩
abbrev main_v90 : Ref sig .tc := ⟨.hbm, 135, rfl⟩
abbrev main_cst_21 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_22 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_23 : Ref sig .tc := ⟨.hbm, 144, rfl⟩
abbrev main_call4_v0 : Ref sig .tc := ⟨.hbm, 145, rfl⟩
abbrev main_call4_v1 : Ref sig .tc := ⟨.hbm, 146, rfl⟩
abbrev main_v97 : Ref sig .tc := ⟨.hbm, 147, rfl⟩
abbrev main_c_24 : Ref sig .tc := ⟨.hbm, 148, rfl⟩
abbrev main_v98 : Ref sig .tc := ⟨.hbm, 149, rfl⟩
abbrev main_v99 : Ref sig .tc := ⟨.hbm, 150, rfl⟩
abbrev main_c_25 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_26 : Ref sig .tc := ⟨.hbm, 157, rfl⟩
abbrev main_v105 : Ref sig .tc := ⟨.hbm, 158, rfl⟩
abbrev main_v106 : Ref sig .tc := ⟨.hbm, 159, rfl⟩
abbrev main_c_27 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_28 : Ref sig .tc := ⟨.hbm, 167, rfl⟩
abbrev main_v113 : Ref sig .tc := ⟨.hbm, 168, rfl⟩
abbrev main_v114 : Ref sig .tc := ⟨.hbm, 169, rfl⟩
abbrev main_c_29 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_30 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_call5_cst : Ref sig .tc := ⟨.hbm, 186, rfl⟩
abbrev main_call5_v0 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_call6_cst : Ref sig .tc := ⟨.hbm, 193, rfl⟩
abbrev main_call6_v0 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_call7_cst : Ref sig .tc := ⟨.hbm, 200, rfl⟩
abbrev main_call7_v0 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  dot_S50000x64_S64x128_S50000x128_1_0_0_1_n_n_wf : DotDims.WF S50000x64 S64x128 S50000x128 [1] [0] [0] [1] [] []
  dot_S50000x128_S128x256_S50000x256_1_0_0_1_n_n_wf : DotDims.WF S50000x128 S128x256 S50000x256 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.KRun.lean ====
/-
  The idealized kernel's run with its result named.  Every weakly fair execution of the program ends, nothing
  faulting, with the argument arrays unchanged and with the result array holding what the last of the four
  pipelines leaves in it: the buffer contents after the fourteen segments of the program (ten stretches of host
  operations and four pipelined calls), read at the result's buffer.  The argument is the launch theorem for a
  program of several pipelined regions, applied to the same segments as the frame claim; only the final reading
  differs: besides the fourteen argument buffers the result's buffer is read off the last thread state.
-/
import proofs.«179557_j45509473469000_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result's buffer ends at the contents after the last segment, the arguments as launched. -/
theorem run_out : θ_run defs (onTc (τ := τ) (main (F := F))) ⟨m, fun _ => 0, ρ⟩ (fun r => ∀ c : Dev nD,
      r.2.mem ((c.tc : Thread nD τ).loc main_v87) = W14 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v87 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.RunOut

end
-- ==== Proof.KeepA.lean ====
/-
  Buffers that a stretch of the program leaves alone.

  Here: the two index columns and the edge weights computed before the first call, and the arguments read up to the third call.  A host operation writes its own result buffer and nothing else, and a pipelined call
  writes the arrays of its windows and nothing else; so a buffer that is neither keeps its contents across the segment.
  Each lemma walks one buffer back, segment by segment, from a later boundary of the program to the boundary where its
  contents are known.
-/
import proofs.«179557_j45509473469000_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch writes the buffer in the goal: each operation's one result buffer is another. -/
macro "keep_stretch " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem keep_main_v3_4 (c : Dev nD) : W4 m ρ c (Proc.devRef .tc main_v3) = W3 m ρ c (Proc.devRef .tc main_v3) :=
  W4_of_ne m ρ c main_v3 (by decide)
theorem keep_main_v3_5 (c : Dev nD) : W5 m ρ c (Proc.devRef .tc main_v3) = W3 m ρ c (Proc.devRef .tc main_v3) :=
  ((by keep_stretch hostOps1 : W5 m ρ c (Proc.devRef .tc main_v3) = W4 m ρ c (Proc.devRef .tc main_v3))).trans (keep_main_v3_4 m ρ c)
theorem keep_main_v3_6 (c : Dev nD) : W6 m ρ c (Proc.devRef .tc main_v3) = W3 m ρ c (Proc.devRef .tc main_v3) :=
  ((by keep_stretch hostOps1_1 : W6 m ρ c (Proc.devRef .tc main_v3) = W5 m ρ c (Proc.devRef .tc main_v3))).trans (keep_main_v3_5 m ρ c)
theorem keep_main_v3_7 (c : Dev nD) : W7 m ρ c (Proc.devRef .tc main_v3) = W3 m ρ c (Proc.devRef .tc main_v3) :=
  (W7_of_ne m ρ c main_v3 (by decide)).trans (keep_main_v3_6 m ρ c)
theorem keep_main_v3_8 (c : Dev nD) : W8 m ρ c (Proc.devRef .tc main_v3) = W3 m ρ c (Proc.devRef .tc main_v3) :=
  ((by keep_stretch hostOps2 : W8 m ρ c (Proc.devRef .tc main_v3) = W7 m ρ c (Proc.devRef .tc main_v3))).trans (keep_main_v3_7 m ρ c)
theorem keep_main_v3_9 (c : Dev nD) : W9 m ρ c (Proc.devRef .tc main_v3) = W3 m ρ c (Proc.devRef .tc main_v3) :=
  ((by keep_stretch hostOps2_1 : W9 m ρ c (Proc.devRef .tc main_v3) = W8 m ρ c (Proc.devRef .tc main_v3))).trans (keep_main_v3_8 m ρ c)
theorem keep_main_v3_10 (c : Dev nD) : W10 m ρ c (Proc.devRef .tc main_v3) = W3 m ρ c (Proc.devRef .tc main_v3) :=
  (W10_of_ne m ρ c main_v3 (by decide)).trans (keep_main_v3_9 m ρ c)

theorem keep_main_v6_4 (c : Dev nD) : W4 m ρ c (Proc.devRef .tc main_v6) = W3 m ρ c (Proc.devRef .tc main_v6) :=
  W4_of_ne m ρ c main_v6 (by decide)
theorem keep_main_v6_5 (c : Dev nD) : W5 m ρ c (Proc.devRef .tc main_v6) = W3 m ρ c (Proc.devRef .tc main_v6) :=
  ((by keep_stretch hostOps1 : W5 m ρ c (Proc.devRef .tc main_v6) = W4 m ρ c (Proc.devRef .tc main_v6))).trans (keep_main_v6_4 m ρ c)
theorem keep_main_v6_6 (c : Dev nD) : W6 m ρ c (Proc.devRef .tc main_v6) = W3 m ρ c (Proc.devRef .tc main_v6) :=
  ((by keep_stretch hostOps1_1 : W6 m ρ c (Proc.devRef .tc main_v6) = W5 m ρ c (Proc.devRef .tc main_v6))).trans (keep_main_v6_5 m ρ c)
theorem keep_main_v6_7 (c : Dev nD) : W7 m ρ c (Proc.devRef .tc main_v6) = W3 m ρ c (Proc.devRef .tc main_v6) :=
  (W7_of_ne m ρ c main_v6 (by decide)).trans (keep_main_v6_6 m ρ c)
theorem keep_main_v6_8 (c : Dev nD) : W8 m ρ c (Proc.devRef .tc main_v6) = W3 m ρ c (Proc.devRef .tc main_v6) :=
  ((by keep_stretch hostOps2 : W8 m ρ c (Proc.devRef .tc main_v6) = W7 m ρ c (Proc.devRef .tc main_v6))).trans (keep_main_v6_7 m ρ c)
theorem keep_main_v6_9 (c : Dev nD) : W9 m ρ c (Proc.devRef .tc main_v6) = W3 m ρ c (Proc.devRef .tc main_v6) :=
  ((by keep_stretch hostOps2_1 : W9 m ρ c (Proc.devRef .tc main_v6) = W8 m ρ c (Proc.devRef .tc main_v6))).trans (keep_main_v6_8 m ρ c)
theorem keep_main_v6_10 (c : Dev nD) : W10 m ρ c (Proc.devRef .tc main_v6) = W3 m ρ c (Proc.devRef .tc main_v6) :=
  (W10_of_ne m ρ c main_v6 (by decide)).trans (keep_main_v6_9 m ρ c)

theorem keep_main_v29_4 (c : Dev nD) : W4 m ρ c (Proc.devRef .tc main_v29) = W3 m ρ c (Proc.devRef .tc main_v29) :=
  W4_of_ne m ρ c main_v29 (by decide)
theorem keep_main_v29_5 (c : Dev nD) : W5 m ρ c (Proc.devRef .tc main_v29) = W3 m ρ c (Proc.devRef .tc main_v29) :=
  ((by keep_stretch hostOps1 : W5 m ρ c (Proc.devRef .tc main_v29) = W4 m ρ c (Proc.devRef .tc main_v29))).trans (keep_main_v29_4 m ρ c)
theorem keep_main_v29_6 (c : Dev nD) : W6 m ρ c (Proc.devRef .tc main_v29) = W3 m ρ c (Proc.devRef .tc main_v29) :=
  ((by keep_stretch hostOps1_1 : W6 m ρ c (Proc.devRef .tc main_v29) = W5 m ρ c (Proc.devRef .tc main_v29))).trans (keep_main_v29_5 m ρ c)
theorem keep_main_v29_7 (c : Dev nD) : W7 m ρ c (Proc.devRef .tc main_v29) = W3 m ρ c (Proc.devRef .tc main_v29) :=
  (W7_of_ne m ρ c main_v29 (by decide)).trans (keep_main_v29_6 m ρ c)
theorem keep_main_v29_8 (c : Dev nD) : W8 m ρ c (Proc.devRef .tc main_v29) = W3 m ρ c (Proc.devRef .tc main_v29) :=
  ((by keep_stretch hostOps2 : W8 m ρ c (Proc.devRef .tc main_v29) = W7 m ρ c (Proc.devRef .tc main_v29))).trans (keep_main_v29_7 m ρ c)
theorem keep_main_v29_9 (c : Dev nD) : W9 m ρ c (Proc.devRef .tc main_v29) = W3 m ρ c (Proc.devRef .tc main_v29) :=
  ((by keep_stretch hostOps2_1 : W9 m ρ c (Proc.devRef .tc main_v29) = W8 m ρ c (Proc.devRef .tc main_v29))).trans (keep_main_v29_8 m ρ c)
theorem keep_main_v29_10 (c : Dev nD) : W10 m ρ c (Proc.devRef .tc main_v29) = W3 m ρ c (Proc.devRef .tc main_v29) :=
  (W10_of_ne m ρ c main_v29 (by decide)).trans (keep_main_v29_9 m ρ c)

theorem keep_main_arg0_1 (c : Dev nD) : W1 m ρ c (Proc.devRef .tc main_arg0) = m ((c : Thread nD τ).loc main_arg0) :=
  ((by keep_stretch hostOps0 : W1 m ρ c (Proc.devRef .tc main_arg0) = W0 m ρ c (Proc.devRef .tc main_arg0))).trans rfl
theorem keep_main_arg0_2 (c : Dev nD) : W2 m ρ c (Proc.devRef .tc main_arg0) = m ((c : Thread nD τ).loc main_arg0) :=
  ((by keep_stretch hostOps0_1 : W2 m ρ c (Proc.devRef .tc main_arg0) = W1 m ρ c (Proc.devRef .tc main_arg0))).trans (keep_main_arg0_1 m ρ c)
theorem keep_main_arg0_3 (c : Dev nD) : W3 m ρ c (Proc.devRef .tc main_arg0) = m ((c : Thread nD τ).loc main_arg0) :=
  ((by keep_stretch hostOps0_2 : W3 m ρ c (Proc.devRef .tc main_arg0) = W2 m ρ c (Proc.devRef .tc main_arg0))).trans (keep_main_arg0_2 m ρ c)

theorem keep_main_arg2_1 (c : Dev nD) : W1 m ρ c (Proc.devRef .tc main_arg2) = m ((c : Thread nD τ).loc main_arg2) :=
  ((by keep_stretch hostOps0 : W1 m ρ c (Proc.devRef .tc main_arg2) = W0 m ρ c (Proc.devRef .tc main_arg2))).trans rfl
theorem keep_main_arg2_2 (c : Dev nD) : W2 m ρ c (Proc.devRef .tc main_arg2) = m ((c : Thread nD τ).loc main_arg2) :=
  ((by keep_stretch hostOps0_1 : W2 m ρ c (Proc.devRef .tc main_arg2) = W1 m ρ c (Proc.devRef .tc main_arg2))).trans (keep_main_arg2_1 m ρ c)
theorem keep_main_arg2_3 (c : Dev nD) : W3 m ρ c (Proc.devRef .tc main_arg2) = m ((c : Thread nD τ).loc main_arg2) :=
  ((by keep_stretch hostOps0_2 : W3 m ρ c (Proc.devRef .tc main_arg2) = W2 m ρ c (Proc.devRef .tc main_arg2))).trans (keep_main_arg2_2 m ρ c)

theorem keep_main_arg3_1 (c : Dev nD) : W1 m ρ c (Proc.devRef .tc main_arg3) = m ((c : Thread nD τ).loc main_arg3) :=
  ((by keep_stretch hostOps0 : W1 m ρ c (Proc.devRef .tc main_arg3) = W0 m ρ c (Proc.devRef .tc main_arg3))).trans rfl
theorem keep_main_arg3_2 (c : Dev nD) : W2 m ρ c (Proc.devRef .tc main_arg3) = m ((c : Thread nD τ).loc main_arg3) :=
  ((by keep_stretch hostOps0_1 : W2 m ρ c (Proc.devRef .tc main_arg3) = W1 m ρ c (Proc.devRef .tc main_arg3))).trans (keep_main_arg3_1 m ρ c)
theorem keep_main_arg3_3 (c : Dev nD) : W3 m ρ c (Proc.devRef .tc main_arg3) = m ((c : Thread nD τ).loc main_arg3) :=
  ((by keep_stretch hostOps0_2 : W3 m ρ c (Proc.devRef .tc main_arg3) = W2 m ρ c (Proc.devRef .tc main_arg3))).trans (keep_main_arg3_2 m ρ c)
theorem keep_main_arg3_4 (c : Dev nD) : W4 m ρ c (Proc.devRef .tc main_arg3) = m ((c : Thread nD τ).loc main_arg3) :=
  (W4_of_ne m ρ c main_arg3 (by decide)).trans (keep_main_arg3_3 m ρ c)

theorem keep_main_arg4_1 (c : Dev nD) : W1 m ρ c (Proc.devRef .tc main_arg4) = m ((c : Thread nD τ).loc main_arg4) :=
  ((by keep_stretch hostOps0 : W1 m ρ c (Proc.devRef .tc main_arg4) = W0 m ρ c (Proc.devRef .tc main_arg4))).trans rfl
theorem keep_main_arg4_2 (c : Dev nD) : W2 m ρ c (Proc.devRef .tc main_arg4) = m ((c : Thread nD τ).loc main_arg4) :=
  ((by keep_stretch hostOps0_1 : W2 m ρ c (Proc.devRef .tc main_arg4) = W1 m ρ c (Proc.devRef .tc main_arg4))).trans (keep_main_arg4_1 m ρ c)
theorem keep_main_arg4_3 (c : Dev nD) : W3 m ρ c (Proc.devRef .tc main_arg4) = m ((c : Thread nD τ).loc main_arg4) :=
  ((by keep_stretch hostOps0_2 : W3 m ρ c (Proc.devRef .tc main_arg4) = W2 m ρ c (Proc.devRef .tc main_arg4))).trans (keep_main_arg4_2 m ρ c)
theorem keep_main_arg4_4 (c : Dev nD) : W4 m ρ c (Proc.devRef .tc main_arg4) = m ((c : Thread nD τ).loc main_arg4) :=
  (W4_of_ne m ρ c main_arg4 (by decide)).trans (keep_main_arg4_3 m ρ c)
theorem keep_main_arg4_5 (c : Dev nD) : W5 m ρ c (Proc.devRef .tc main_arg4) = m ((c : Thread nD τ).loc main_arg4) :=
  ((by keep_stretch hostOps1 : W5 m ρ c (Proc.devRef .tc main_arg4) = W4 m ρ c (Proc.devRef .tc main_arg4))).trans (keep_main_arg4_4 m ρ c)
theorem keep_main_arg4_6 (c : Dev nD) : W6 m ρ c (Proc.devRef .tc main_arg4) = m ((c : Thread nD τ).loc main_arg4) :=
  ((by keep_stretch hostOps1_1 : W6 m ρ c (Proc.devRef .tc main_arg4) = W5 m ρ c (Proc.devRef .tc main_arg4))).trans (keep_main_arg4_5 m ρ c)

theorem keep_main_arg5_1 (c : Dev nD) : W1 m ρ c (Proc.devRef .tc main_arg5) = m ((c : Thread nD τ).loc main_arg5) :=
  ((by keep_stretch hostOps0 : W1 m ρ c (Proc.devRef .tc main_arg5) = W0 m ρ c (Proc.devRef .tc main_arg5))).trans rfl
theorem keep_main_arg5_2 (c : Dev nD) : W2 m ρ c (Proc.devRef .tc main_arg5) = m ((c : Thread nD τ).loc main_arg5) :=
  ((by keep_stretch hostOps0_1 : W2 m ρ c (Proc.devRef .tc main_arg5) = W1 m ρ c (Proc.devRef .tc main_arg5))).trans (keep_main_arg5_1 m ρ c)
theorem keep_main_arg5_3 (c : Dev nD) : W3 m ρ c (Proc.devRef .tc main_arg5) = m ((c : Thread nD τ).loc main_arg5) :=
  ((by keep_stretch hostOps0_2 : W3 m ρ c (Proc.devRef .tc main_arg5) = W2 m ρ c (Proc.devRef .tc main_arg5))).trans (keep_main_arg5_2 m ρ c)
theorem keep_main_arg5_4 (c : Dev nD) : W4 m ρ c (Proc.devRef .tc main_arg5) = m ((c : Thread nD τ).loc main_arg5) :=
  (W4_of_ne m ρ c main_arg5 (by decide)).trans (keep_main_arg5_3 m ρ c)
theorem keep_main_arg5_5 (c : Dev nD) : W5 m ρ c (Proc.devRef .tc main_arg5) = m ((c : Thread nD τ).loc main_arg5) :=
  ((by keep_stretch hostOps1 : W5 m ρ c (Proc.devRef .tc main_arg5) = W4 m ρ c (Proc.devRef .tc main_arg5))).trans (keep_main_arg5_4 m ρ c)
theorem keep_main_arg5_6 (c : Dev nD) : W6 m ρ c (Proc.devRef .tc main_arg5) = m ((c : Thread nD τ).loc main_arg5) :=
  ((by keep_stretch hostOps1_1 : W6 m ρ c (Proc.devRef .tc main_arg5) = W5 m ρ c (Proc.devRef .tc main_arg5))).trans (keep_main_arg5_5 m ρ c)
theorem keep_main_arg5_7 (c : Dev nD) : W7 m ρ c (Proc.devRef .tc main_arg5) = m ((c : Thread nD τ).loc main_arg5) :=
  (W7_of_ne m ρ c main_arg5 (by decide)).trans (keep_main_arg5_6 m ρ c)

theorem keep_main_arg6_1 (c : Dev nD) : W1 m ρ c (Proc.devRef .tc main_arg6) = m ((c : Thread nD τ).loc main_arg6) :=
  ((by keep_stretch hostOps0 : W1 m ρ c (Proc.devRef .tc main_arg6) = W0 m ρ c (Proc.devRef .tc main_arg6))).trans rfl
theorem keep_main_arg6_2 (c : Dev nD) : W2 m ρ c (Proc.devRef .tc main_arg6) = m ((c : Thread nD τ).loc main_arg6) :=
  ((by keep_stretch hostOps0_1 : W2 m ρ c (Proc.devRef .tc main_arg6) = W1 m ρ c (Proc.devRef .tc main_arg6))).trans (keep_main_arg6_1 m ρ c)
theorem keep_main_arg6_3 (c : Dev nD) : W3 m ρ c (Proc.devRef .tc main_arg6) = m ((c : Thread nD τ).loc main_arg6) :=
  ((by keep_stretch hostOps0_2 : W3 m ρ c (Proc.devRef .tc main_arg6) = W2 m ρ c (Proc.devRef .tc main_arg6))).trans (keep_main_arg6_2 m ρ c)
theorem keep_main_arg6_4 (c : Dev nD) : W4 m ρ c (Proc.devRef .tc main_arg6) = m ((c : Thread nD τ).loc main_arg6) :=
  (W4_of_ne m ρ c main_arg6 (by decide)).trans (keep_main_arg6_3 m ρ c)
theorem keep_main_arg6_5 (c : Dev nD) : W5 m ρ c (Proc.devRef .tc main_arg6) = m ((c : Thread nD τ).loc main_arg6) :=
  ((by keep_stretch hostOps1 : W5 m ρ c (Proc.devRef .tc main_arg6) = W4 m ρ c (Proc.devRef .tc main_arg6))).trans (keep_main_arg6_4 m ρ c)
theorem keep_main_arg6_6 (c : Dev nD) : W6 m ρ c (Proc.devRef .tc main_arg6) = m ((c : Thread nD τ).loc main_arg6) :=
  ((by keep_stretch hostOps1_1 : W6 m ρ c (Proc.devRef .tc main_arg6) = W5 m ρ c (Proc.devRef .tc main_arg6))).trans (keep_main_arg6_5 m ρ c)
theorem keep_main_arg6_7 (c : Dev nD) : W7 m ρ c (Proc.devRef .tc main_arg6) = m ((c : Thread nD τ).loc main_arg6) :=
  (W7_of_ne m ρ c main_arg6 (by decide)).trans (keep_main_arg6_6 m ρ c)
theorem keep_main_arg6_8 (c : Dev nD) : W8 m ρ c (Proc.devRef .tc main_arg6) = m ((c : Thread nD τ).loc main_arg6) :=
  ((by keep_stretch hostOps2 : W8 m ρ c (Proc.devRef .tc main_arg6) = W7 m ρ c (Proc.devRef .tc main_arg6))).trans (keep_main_arg6_7 m ρ c)
theorem keep_main_arg6_9 (c : Dev nD) : W9 m ρ c (Proc.devRef .tc main_arg6) = m ((c : Thread nD τ).loc main_arg6) :=
  ((by keep_stretch hostOps2_1 : W9 m ρ c (Proc.devRef .tc main_arg6) = W8 m ρ c (Proc.devRef .tc main_arg6))).trans (keep_main_arg6_8 m ρ c)

theorem keep_main_arg7_1 (c : Dev nD) : W1 m ρ c (Proc.devRef .tc main_arg7) = m ((c : Thread nD τ).loc main_arg7) :=
  ((by keep_stretch hostOps0 : W1 m ρ c (Proc.devRef .tc main_arg7) = W0 m ρ c (Proc.devRef .tc main_arg7))).trans rfl
theorem keep_main_arg7_2 (c : Dev nD) : W2 m ρ c (Proc.devRef .tc main_arg7) = m ((c : Thread nD τ).loc main_arg7) :=
  ((by keep_stretch hostOps0_1 : W2 m ρ c (Proc.devRef .tc main_arg7) = W1 m ρ c (Proc.devRef .tc main_arg7))).trans (keep_main_arg7_1 m ρ c)
theorem keep_main_arg7_3 (c : Dev nD) : W3 m ρ c (Proc.devRef .tc main_arg7) = m ((c : Thread nD τ).loc main_arg7) :=
  ((by keep_stretch hostOps0_2 : W3 m ρ c (Proc.devRef .tc main_arg7) = W2 m ρ c (Proc.devRef .tc main_arg7))).trans (keep_main_arg7_2 m ρ c)
theorem keep_main_arg7_4 (c : Dev nD) : W4 m ρ c (Proc.devRef .tc main_arg7) = m ((c : Thread nD τ).loc main_arg7) :=
  (W4_of_ne m ρ c main_arg7 (by decide)).trans (keep_main_arg7_3 m ρ c)
theorem keep_main_arg7_5 (c : Dev nD) : W5 m ρ c (Proc.devRef .tc main_arg7) = m ((c : Thread nD τ).loc main_arg7) :=
  ((by keep_stretch hostOps1 : W5 m ρ c (Proc.devRef .tc main_arg7) = W4 m ρ c (Proc.devRef .tc main_arg7))).trans (keep_main_arg7_4 m ρ c)
theorem keep_main_arg7_6 (c : Dev nD) : W6 m ρ c (Proc.devRef .tc main_arg7) = m ((c : Thread nD τ).loc main_arg7) :=
  ((by keep_stretch hostOps1_1 : W6 m ρ c (Proc.devRef .tc main_arg7) = W5 m ρ c (Proc.devRef .tc main_arg7))).trans (keep_main_arg7_5 m ρ c)
theorem keep_main_arg7_7 (c : Dev nD) : W7 m ρ c (Proc.devRef .tc main_arg7) = m ((c : Thread nD τ).loc main_arg7) :=
  (W7_of_ne m ρ c main_arg7 (by decide)).trans (keep_main_arg7_6 m ρ c)
theorem keep_main_arg7_8 (c : Dev nD) : W8 m ρ c (Proc.devRef .tc main_arg7) = m ((c : Thread nD τ).loc main_arg7) :=
  ((by keep_stretch hostOps2 : W8 m ρ c (Proc.devRef .tc main_arg7) = W7 m ρ c (Proc.devRef .tc main_arg7))).trans (keep_main_arg7_7 m ρ c)
theorem keep_main_arg7_9 (c : Dev nD) : W9 m ρ c (Proc.devRef .tc main_arg7) = m ((c : Thread nD τ).loc main_arg7) :=
  ((by keep_stretch hostOps2_1 : W9 m ρ c (Proc.devRef .tc main_arg7) = W8 m ρ c (Proc.devRef .tc main_arg7))).trans (keep_main_arg7_8 m ρ c)
theorem keep_main_arg7_10 (c : Dev nD) : W10 m ρ c (Proc.devRef .tc main_arg7) = m ((c : Thread nD τ).loc main_arg7) :=
  (W10_of_ne m ρ c main_arg7 (by decide)).trans (keep_main_arg7_9 m ρ c)

end Cert.KernelIdeal.Keep

end
-- ==== Proof.KeepB.lean ====
/-
  Buffers that a stretch of the program leaves alone.

  Here: the six decoder arguments, read only by the last stretch and the last call.  A host operation writes its own result buffer and nothing else, and a pipelined call
  writes the arrays of its windows and nothing else; so a buffer that is neither keeps its contents across the segment.
  Each lemma walks one buffer back, segment by segment, from a later boundary of the program to the boundary where its
  contents are known.
-/
import proofs.«179557_j45509473469000_2_alg».proof.Proof.Gen.KernelIdeal.Frame

set_option maxRecDepth 16384

noncomputable section

namespace Cert.KernelIdeal.KeepB

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch writes the buffer in the goal: each operation's one result buffer is another. -/
macro "keep_stretch " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem keep_main_arg8_1 (c : Dev nD) : W1 m ρ c (Proc.devRef .tc main_arg8) = m ((c : Thread nD τ).loc main_arg8) :=
  ((by keep_stretch hostOps0 : W1 m ρ c (Proc.devRef .tc main_arg8) = W0 m ρ c (Proc.devRef .tc main_arg8))).trans rfl
theorem keep_main_arg8_2 (c : Dev nD) : W2 m ρ c (Proc.devRef .tc main_arg8) = m ((c : Thread nD τ).loc main_arg8) :=
  ((by keep_stretch hostOps0_1 : W2 m ρ c (Proc.devRef .tc main_arg8) = W1 m ρ c (Proc.devRef .tc main_arg8))).trans (keep_main_arg8_1 m ρ c)
theorem keep_main_arg8_3 (c : Dev nD) : W3 m ρ c (Proc.devRef .tc main_arg8) = m ((c : Thread nD τ).loc main_arg8) :=
  ((by keep_stretch hostOps0_2 : W3 m ρ c (Proc.devRef .tc main_arg8) = W2 m ρ c (Proc.devRef .tc main_arg8))).trans (keep_main_arg8_2 m ρ c)
theorem keep_main_arg8_4 (c : Dev nD) : W4 m ρ c (Proc.devRef .tc main_arg8) = m ((c : Thread nD τ).loc main_arg8) :=
  (W4_of_ne m ρ c main_arg8 (by decide)).trans (keep_main_arg8_3 m ρ c)
theorem keep_main_arg8_5 (c : Dev nD) : W5 m ρ c (Proc.devRef .tc main_arg8) = m ((c : Thread nD τ).loc main_arg8) :=
  ((by keep_stretch hostOps1 : W5 m ρ c (Proc.devRef .tc main_arg8) = W4 m ρ c (Proc.devRef .tc main_arg8))).trans (keep_main_arg8_4 m ρ c)
theorem keep_main_arg8_6 (c : Dev nD) : W6 m ρ c (Proc.devRef .tc main_arg8) = m ((c : Thread nD τ).loc main_arg8) :=
  ((by keep_stretch hostOps1_1 : W6 m ρ c (Proc.devRef .tc main_arg8) = W5 m ρ c (Proc.devRef .tc main_arg8))).trans (keep_main_arg8_5 m ρ c)
theorem keep_main_arg8_7 (c : Dev nD) : W7 m ρ c (Proc.devRef .tc main_arg8) = m ((c : Thread nD τ).loc main_arg8) :=
  (W7_of_ne m ρ c main_arg8 (by decide)).trans (keep_main_arg8_6 m ρ c)
theorem keep_main_arg8_8 (c : Dev nD) : W8 m ρ c (Proc.devRef .tc main_arg8) = m ((c : Thread nD τ).loc main_arg8) :=
  ((by keep_stretch hostOps2 : W8 m ρ c (Proc.devRef .tc main_arg8) = W7 m ρ c (Proc.devRef .tc main_arg8))).trans (keep_main_arg8_7 m ρ c)
theorem keep_main_arg8_9 (c : Dev nD) : W9 m ρ c (Proc.devRef .tc main_arg8) = m ((c : Thread nD τ).loc main_arg8) :=
  ((by keep_stretch hostOps2_1 : W9 m ρ c (Proc.devRef .tc main_arg8) = W8 m ρ c (Proc.devRef .tc main_arg8))).trans (keep_main_arg8_8 m ρ c)
theorem keep_main_arg8_10 (c : Dev nD) : W10 m ρ c (Proc.devRef .tc main_arg8) = m ((c : Thread nD τ).loc main_arg8) :=
  (W10_of_ne m ρ c main_arg8 (by decide)).trans (keep_main_arg8_9 m ρ c)
theorem keep_main_arg8_11 (c : Dev nD) : W11 m ρ c (Proc.devRef .tc main_arg8) = m ((c : Thread nD τ).loc main_arg8) :=
  ((by keep_stretch hostOps3 : W11 m ρ c (Proc.devRef .tc main_arg8) = W10 m ρ c (Proc.devRef .tc main_arg8))).trans (keep_main_arg8_10 m ρ c)
theorem keep_main_arg8_12 (c : Dev nD) : W12 m ρ c (Proc.devRef .tc main_arg8) = m ((c : Thread nD τ).loc main_arg8) :=
  ((by keep_stretch hostOps3_1 : W12 m ρ c (Proc.devRef .tc main_arg8) = W11 m ρ c (Proc.devRef .tc main_arg8))).trans (keep_main_arg8_11 m ρ c)
theorem keep_main_arg8_13 (c : Dev nD) : W13 m ρ c (Proc.devRef .tc main_arg8) = m ((c : Thread nD τ).loc main_arg8) :=
  ((by keep_stretch hostOps3_2 : W13 m ρ c (Proc.devRef .tc main_arg8) = W12 m ρ c (Proc.devRef .tc main_arg8))).trans (keep_main_arg8_12 m ρ c)

theorem keep_main_arg9_1 (c : Dev nD) : W1 m ρ c (Proc.devRef .tc main_arg9) = m ((c : Thread nD τ).loc main_arg9) :=
  ((by keep_stretch hostOps0 : W1 m ρ c (Proc.devRef .tc main_arg9) = W0 m ρ c (Proc.devRef .tc main_arg9))).trans rfl
theorem keep_main_arg9_2 (c : Dev nD) : W2 m ρ c (Proc.devRef .tc main_arg9) = m ((c : Thread nD τ).loc main_arg9) :=
  ((by keep_stretch hostOps0_1 : W2 m ρ c (Proc.devRef .tc main_arg9) = W1 m ρ c (Proc.devRef .tc main_arg9))).trans (keep_main_arg9_1 m ρ c)
theorem keep_main_arg9_3 (c : Dev nD) : W3 m ρ c (Proc.devRef .tc main_arg9) = m ((c : Thread nD τ).loc main_arg9) :=
  ((by keep_stretch hostOps0_2 : W3 m ρ c (Proc.devRef .tc main_arg9) = W2 m ρ c (Proc.devRef .tc main_arg9))).trans (keep_main_arg9_2 m ρ c)
theorem keep_main_arg9_4 (c : Dev nD) : W4 m ρ c (Proc.devRef .tc main_arg9) = m ((c : Thread nD τ).loc main_arg9) :=
  (W4_of_ne m ρ c main_arg9 (by decide)).trans (keep_main_arg9_3 m ρ c)
theorem keep_main_arg9_5 (c : Dev nD) : W5 m ρ c (Proc.devRef .tc main_arg9) = m ((c : Thread nD τ).loc main_arg9) :=
  ((by keep_stretch hostOps1 : W5 m ρ c (Proc.devRef .tc main_arg9) = W4 m ρ c (Proc.devRef .tc main_arg9))).trans (keep_main_arg9_4 m ρ c)
theorem keep_main_arg9_6 (c : Dev nD) : W6 m ρ c (Proc.devRef .tc main_arg9) = m ((c : Thread nD τ).loc main_arg9) :=
  ((by keep_stretch hostOps1_1 : W6 m ρ c (Proc.devRef .tc main_arg9) = W5 m ρ c (Proc.devRef .tc main_arg9))).trans (keep_main_arg9_5 m ρ c)
theorem keep_main_arg9_7 (c : Dev nD) : W7 m ρ c (Proc.devRef .tc main_arg9) = m ((c : Thread nD τ).loc main_arg9) :=
  (W7_of_ne m ρ c main_arg9 (by decide)).trans (keep_main_arg9_6 m ρ c)
theorem keep_main_arg9_8 (c : Dev nD) : W8 m ρ c (Proc.devRef .tc main_arg9) = m ((c : Thread nD τ).loc main_arg9) :=
  ((by keep_stretch hostOps2 : W8 m ρ c (Proc.devRef .tc main_arg9) = W7 m ρ c (Proc.devRef .tc main_arg9))).trans (keep_main_arg9_7 m ρ c)
theorem keep_main_arg9_9 (c : Dev nD) : W9 m ρ c (Proc.devRef .tc main_arg9) = m ((c : Thread nD τ).loc main_arg9) :=
  ((by keep_stretch hostOps2_1 : W9 m ρ c (Proc.devRef .tc main_arg9) = W8 m ρ c (Proc.devRef .tc main_arg9))).trans (keep_main_arg9_8 m ρ c)
theorem keep_main_arg9_10 (c : Dev nD) : W10 m ρ c (Proc.devRef .tc main_arg9) = m ((c : Thread nD τ).loc main_arg9) :=
  (W10_of_ne m ρ c main_arg9 (by decide)).trans (keep_main_arg9_9 m ρ c)
theorem keep_main_arg9_11 (c : Dev nD) : W11 m ρ c (Proc.devRef .tc main_arg9) = m ((c : Thread nD τ).loc main_arg9) :=
  ((by keep_stretch hostOps3 : W11 m ρ c (Proc.devRef .tc main_arg9) = W10 m ρ c (Proc.devRef .tc main_arg9))).trans (keep_main_arg9_10 m ρ c)
theorem keep_main_arg9_12 (c : Dev nD) : W12 m ρ c (Proc.devRef .tc main_arg9) = m ((c : Thread nD τ).loc main_arg9) :=
  ((by keep_stretch hostOps3_1 : W12 m ρ c (Proc.devRef .tc main_arg9) = W11 m ρ c (Proc.devRef .tc main_arg9))).trans (keep_main_arg9_11 m ρ c)

theorem keep_main_arg10_1 (c : Dev nD) : W1 m ρ c (Proc.devRef .tc main_arg10) = m ((c : Thread nD τ).loc main_arg10) :=
  ((by keep_stretch hostOps0 : W1 m ρ c (Proc.devRef .tc main_arg10) = W0 m ρ c (Proc.devRef .tc main_arg10))).trans rfl
theorem keep_main_arg10_2 (c : Dev nD) : W2 m ρ c (Proc.devRef .tc main_arg10) = m ((c : Thread nD τ).loc main_arg10) :=
  ((by keep_stretch hostOps0_1 : W2 m ρ c (Proc.devRef .tc main_arg10) = W1 m ρ c (Proc.devRef .tc main_arg10))).trans (keep_main_arg10_1 m ρ c)
theorem keep_main_arg10_3 (c : Dev nD) : W3 m ρ c (Proc.devRef .tc main_arg10) = m ((c : Thread nD τ).loc main_arg10) :=
  ((by keep_stretch hostOps0_2 : W3 m ρ c (Proc.devRef .tc main_arg10) = W2 m ρ c (Proc.devRef .tc main_arg10))).trans (keep_main_arg10_2 m ρ c)
theorem keep_main_arg10_4 (c : Dev nD) : W4 m ρ c (Proc.devRef .tc main_arg10) = m ((c : Thread nD τ).loc main_arg10) :=
  (W4_of_ne m ρ c main_arg10 (by decide)).trans (keep_main_arg10_3 m ρ c)
theorem keep_main_arg10_5 (c : Dev nD) : W5 m ρ c (Proc.devRef .tc main_arg10) = m ((c : Thread nD τ).loc main_arg10) :=
  ((by keep_stretch hostOps1 : W5 m ρ c (Proc.devRef .tc main_arg10) = W4 m ρ c (Proc.devRef .tc main_arg10))).trans (keep_main_arg10_4 m ρ c)
theorem keep_main_arg10_6 (c : Dev nD) : W6 m ρ c (Proc.devRef .tc main_arg10) = m ((c : Thread nD τ).loc main_arg10) :=
  ((by keep_stretch hostOps1_1 : W6 m ρ c (Proc.devRef .tc main_arg10) = W5 m ρ c (Proc.devRef .tc main_arg10))).trans (keep_main_arg10_5 m ρ c)
theorem keep_main_arg10_7 (c : Dev nD) : W7 m ρ c (Proc.devRef .tc main_arg10) = m ((c : Thread nD τ).loc main_arg10) :=
  (W7_of_ne m ρ c main_arg10 (by decide)).trans (keep_main_arg10_6 m ρ c)
theorem keep_main_arg10_8 (c : Dev nD) : W8 m ρ c (Proc.devRef .tc main_arg10) = m ((c : Thread nD τ).loc main_arg10) :=
  ((by keep_stretch hostOps2 : W8 m ρ c (Proc.devRef .tc main_arg10) = W7 m ρ c (Proc.devRef .tc main_arg10))).trans (keep_main_arg10_7 m ρ c)
theorem keep_main_arg10_9 (c : Dev nD) : W9 m ρ c (Proc.devRef .tc main_arg10) = m ((c : Thread nD τ).loc main_arg10) :=
  ((by keep_stretch hostOps2_1 : W9 m ρ c (Proc.devRef .tc main_arg10) = W8 m ρ c (Proc.devRef .tc main_arg10))).trans (keep_main_arg10_8 m ρ c)
theorem keep_main_arg10_10 (c : Dev nD) : W10 m ρ c (Proc.devRef .tc main_arg10) = m ((c : Thread nD τ).loc main_arg10) :=
  (W10_of_ne m ρ c main_arg10 (by decide)).trans (keep_main_arg10_9 m ρ c)
theorem keep_main_arg10_11 (c : Dev nD) : W11 m ρ c (Proc.devRef .tc main_arg10) = m ((c : Thread nD τ).loc main_arg10) :=
  ((by keep_stretch hostOps3 : W11 m ρ c (Proc.devRef .tc main_arg10) = W10 m ρ c (Proc.devRef .tc main_arg10))).trans (keep_main_arg10_10 m ρ c)
theorem keep_main_arg10_12 (c : Dev nD) : W12 m ρ c (Proc.devRef .tc main_arg10) = m ((c : Thread nD τ).loc main_arg10) :=
  ((by keep_stretch hostOps3_1 : W12 m ρ c (Proc.devRef .tc main_arg10) = W11 m ρ c (Proc.devRef .tc main_arg10))).trans (keep_main_arg10_11 m ρ c)
theorem keep_main_arg10_13 (c : Dev nD) : W13 m ρ c (Proc.devRef .tc main_arg10) = m ((c : Thread nD τ).loc main_arg10) :=
  ((by keep_stretch hostOps3_2 : W13 m ρ c (Proc.devRef .tc main_arg10) = W12 m ρ c (Proc.devRef .tc main_arg10))).trans (keep_main_arg10_12 m ρ c)

theorem keep_main_arg11_1 (c : Dev nD) : W1 m ρ c (Proc.devRef .tc main_arg11) = m ((c : Thread nD τ).loc main_arg11) :=
  ((by keep_stretch hostOps0 : W1 m ρ c (Proc.devRef .tc main_arg11) = W0 m ρ c (Proc.devRef .tc main_arg11))).trans rfl
theorem keep_main_arg11_2 (c : Dev nD) : W2 m ρ c (Proc.devRef .tc main_arg11) = m ((c : Thread nD τ).loc main_arg11) :=
  ((by keep_stretch hostOps0_1 : W2 m ρ c (Proc.devRef .tc main_arg11) = W1 m ρ c (Proc.devRef .tc main_arg11))).trans (keep_main_arg11_1 m ρ c)
theorem keep_main_arg11_3 (c : Dev nD) : W3 m ρ c (Proc.devRef .tc main_arg11) = m ((c : Thread nD τ).loc main_arg11) :=
  ((by keep_stretch hostOps0_2 : W3 m ρ c (Proc.devRef .tc main_arg11) = W2 m ρ c (Proc.devRef .tc main_arg11))).trans (keep_main_arg11_2 m ρ c)
theorem keep_main_arg11_4 (c : Dev nD) : W4 m ρ c (Proc.devRef .tc main_arg11) = m ((c : Thread nD τ).loc main_arg11) :=
  (W4_of_ne m ρ c main_arg11 (by decide)).trans (keep_main_arg11_3 m ρ c)
theorem keep_main_arg11_5 (c : Dev nD) : W5 m ρ c (Proc.devRef .tc main_arg11) = m ((c : Thread nD τ).loc main_arg11) :=
  ((by keep_stretch hostOps1 : W5 m ρ c (Proc.devRef .tc main_arg11) = W4 m ρ c (Proc.devRef .tc main_arg11))).trans (keep_main_arg11_4 m ρ c)
theorem keep_main_arg11_6 (c : Dev nD) : W6 m ρ c (Proc.devRef .tc main_arg11) = m ((c : Thread nD τ).loc main_arg11) :=
  ((by keep_stretch hostOps1_1 : W6 m ρ c (Proc.devRef .tc main_arg11) = W5 m ρ c (Proc.devRef .tc main_arg11))).trans (keep_main_arg11_5 m ρ c)
theorem keep_main_arg11_7 (c : Dev nD) : W7 m ρ c (Proc.devRef .tc main_arg11) = m ((c : Thread nD τ).loc main_arg11) :=
  (W7_of_ne m ρ c main_arg11 (by decide)).trans (keep_main_arg11_6 m ρ c)
theorem keep_main_arg11_8 (c : Dev nD) : W8 m ρ c (Proc.devRef .tc main_arg11) = m ((c : Thread nD τ).loc main_arg11) :=
  ((by keep_stretch hostOps2 : W8 m ρ c (Proc.devRef .tc main_arg11) = W7 m ρ c (Proc.devRef .tc main_arg11))).trans (keep_main_arg11_7 m ρ c)
theorem keep_main_arg11_9 (c : Dev nD) : W9 m ρ c (Proc.devRef .tc main_arg11) = m ((c : Thread nD τ).loc main_arg11) :=
  ((by keep_stretch hostOps2_1 : W9 m ρ c (Proc.devRef .tc main_arg11) = W8 m ρ c (Proc.devRef .tc main_arg11))).trans (keep_main_arg11_8 m ρ c)
theorem keep_main_arg11_10 (c : Dev nD) : W10 m ρ c (Proc.devRef .tc main_arg11) = m ((c : Thread nD τ).loc main_arg11) :=
  (W10_of_ne m ρ c main_arg11 (by decide)).trans (keep_main_arg11_9 m ρ c)
theorem keep_main_arg11_11 (c : Dev nD) : W11 m ρ c (Proc.devRef .tc main_arg11) = m ((c : Thread nD τ).loc main_arg11) :=
  ((by keep_stretch hostOps3 : W11 m ρ c (Proc.devRef .tc main_arg11) = W10 m ρ c (Proc.devRef .tc main_arg11))).trans (keep_main_arg11_10 m ρ c)
theorem keep_main_arg11_12 (c : Dev nD) : W12 m ρ c (Proc.devRef .tc main_arg11) = m ((c : Thread nD τ).loc main_arg11) :=
  ((by keep_stretch hostOps3_1 : W12 m ρ c (Proc.devRef .tc main_arg11) = W11 m ρ c (Proc.devRef .tc main_arg11))).trans (keep_main_arg11_11 m ρ c)

theorem keep_main_arg12_1 (c : Dev nD) : W1 m ρ c (Proc.devRef .tc main_arg12) = m ((c : Thread nD τ).loc main_arg12) :=
  ((by keep_stretch hostOps0 : W1 m ρ c (Proc.devRef .tc main_arg12) = W0 m ρ c (Proc.devRef .tc main_arg12))).trans rfl
theorem keep_main_arg12_2 (c : Dev nD) : W2 m ρ c (Proc.devRef .tc main_arg12) = m ((c : Thread nD τ).loc main_arg12) :=
  ((by keep_stretch hostOps0_1 : W2 m ρ c (Proc.devRef .tc main_arg12) = W1 m ρ c (Proc.devRef .tc main_arg12))).trans (keep_main_arg12_1 m ρ c)
theorem keep_main_arg12_3 (c : Dev nD) : W3 m ρ c (Proc.devRef .tc main_arg12) = m ((c : Thread nD τ).loc main_arg12) :=
  ((by keep_stretch hostOps0_2 : W3 m ρ c (Proc.devRef .tc main_arg12) = W2 m ρ c (Proc.devRef .tc main_arg12))).trans (keep_main_arg12_2 m ρ c)
theorem keep_main_arg12_4 (c : Dev nD) : W4 m ρ c (Proc.devRef .tc main_arg12) = m ((c : Thread nD τ).loc main_arg12) :=
  (W4_of_ne m ρ c main_arg12 (by decide)).trans (keep_main_arg12_3 m ρ c)
theorem keep_main_arg12_5 (c : Dev nD) : W5 m ρ c (Proc.devRef .tc main_arg12) = m ((c : Thread nD τ).loc main_arg12) :=
  ((by keep_stretch hostOps1 : W5 m ρ c (Proc.devRef .tc main_arg12) = W4 m ρ c (Proc.devRef .tc main_arg12))).trans (keep_main_arg12_4 m ρ c)
theorem keep_main_arg12_6 (c : Dev nD) : W6 m ρ c (Proc.devRef .tc main_arg12) = m ((c : Thread nD τ).loc main_arg12) :=
  ((by keep_stretch hostOps1_1 : W6 m ρ c (Proc.devRef .tc main_arg12) = W5 m ρ c (Proc.devRef .tc main_arg12))).trans (keep_main_arg12_5 m ρ c)
theorem keep_main_arg12_7 (c : Dev nD) : W7 m ρ c (Proc.devRef .tc main_arg12) = m ((c : Thread nD τ).loc main_arg12) :=
  (W7_of_ne m ρ c main_arg12 (by decide)).trans (keep_main_arg12_6 m ρ c)
theorem keep_main_arg12_8 (c : Dev nD) : W8 m ρ c (Proc.devRef .tc main_arg12) = m ((c : Thread nD τ).loc main_arg12) :=
  ((by keep_stretch hostOps2 : W8 m ρ c (Proc.devRef .tc main_arg12) = W7 m ρ c (Proc.devRef .tc main_arg12))).trans (keep_main_arg12_7 m ρ c)
theorem keep_main_arg12_9 (c : Dev nD) : W9 m ρ c (Proc.devRef .tc main_arg12) = m ((c : Thread nD τ).loc main_arg12) :=
  ((by keep_stretch hostOps2_1 : W9 m ρ c (Proc.devRef .tc main_arg12) = W8 m ρ c (Proc.devRef .tc main_arg12))).trans (keep_main_arg12_8 m ρ c)
theorem keep_main_arg12_10 (c : Dev nD) : W10 m ρ c (Proc.devRef .tc main_arg12) = m ((c : Thread nD τ).loc main_arg12) :=
  (W10_of_ne m ρ c main_arg12 (by decide)).trans (keep_main_arg12_9 m ρ c)
theorem keep_main_arg12_11 (c : Dev nD) : W11 m ρ c (Proc.devRef .tc main_arg12) = m ((c : Thread nD τ).loc main_arg12) :=
  ((by keep_stretch hostOps3 : W11 m ρ c (Proc.devRef .tc main_arg12) = W10 m ρ c (Proc.devRef .tc main_arg12))).trans (keep_main_arg12_10 m ρ c)
theorem keep_main_arg12_12 (c : Dev nD) : W12 m ρ c (Proc.devRef .tc main_arg12) = m ((c : Thread nD τ).loc main_arg12) :=
  ((by keep_stretch hostOps3_1 : W12 m ρ c (Proc.devRef .tc main_arg12) = W11 m ρ c (Proc.devRef .tc main_arg12))).trans (keep_main_arg12_11 m ρ c)
theorem keep_main_arg12_13 (c : Dev nD) : W13 m ρ c (Proc.devRef .tc main_arg12) = m ((c : Thread nD τ).loc main_arg12) :=
  ((by keep_stretch hostOps3_2 : W13 m ρ c (Proc.devRef .tc main_arg12) = W12 m ρ c (Proc.devRef .tc main_arg12))).trans (keep_main_arg12_12 m ρ c)

theorem keep_main_arg13_1 (c : Dev nD) : W1 m ρ c (Proc.devRef .tc main_arg13) = m ((c : Thread nD τ).loc main_arg13) :=
  ((by keep_stretch hostOps0 : W1 m ρ c (Proc.devRef .tc main_arg13) = W0 m ρ c (Proc.devRef .tc main_arg13))).trans rfl
theorem keep_main_arg13_2 (c : Dev nD) : W2 m ρ c (Proc.devRef .tc main_arg13) = m ((c : Thread nD τ).loc main_arg13) :=
  ((by keep_stretch hostOps0_1 : W2 m ρ c (Proc.devRef .tc main_arg13) = W1 m ρ c (Proc.devRef .tc main_arg13))).trans (keep_main_arg13_1 m ρ c)
theorem keep_main_arg13_3 (c : Dev nD) : W3 m ρ c (Proc.devRef .tc main_arg13) = m ((c : Thread nD τ).loc main_arg13) :=
  ((by keep_stretch hostOps0_2 : W3 m ρ c (Proc.devRef .tc main_arg13) = W2 m ρ c (Proc.devRef .tc main_arg13))).trans (keep_main_arg13_2 m ρ c)
theorem keep_main_arg13_4 (c : Dev nD) : W4 m ρ c (Proc.devRef .tc main_arg13) = m ((c : Thread nD τ).loc main_arg13) :=
  (W4_of_ne m ρ c main_arg13 (by decide)).trans (keep_main_arg13_3 m ρ c)
theorem keep_main_arg13_5 (c : Dev nD) : W5 m ρ c (Proc.devRef .tc main_arg13) = m ((c : Thread nD τ).loc main_arg13) :=
  ((by keep_stretch hostOps1 : W5 m ρ c (Proc.devRef .tc main_arg13) = W4 m ρ c (Proc.devRef .tc main_arg13))).trans (keep_main_arg13_4 m ρ c)
theorem keep_main_arg13_6 (c : Dev nD) : W6 m ρ c (Proc.devRef .tc main_arg13) = m ((c : Thread nD τ).loc main_arg13) :=
  ((by keep_stretch hostOps1_1 : W6 m ρ c (Proc.devRef .tc main_arg13) = W5 m ρ c (Proc.devRef .tc main_arg13))).trans (keep_main_arg13_5 m ρ c)
theorem keep_main_arg13_7 (c : Dev nD) : W7 m ρ c (Proc.devRef .tc main_arg13) = m ((c : Thread nD τ).loc main_arg13) :=
  (W7_of_ne m ρ c main_arg13 (by decide)).trans (keep_main_arg13_6 m ρ c)
theorem keep_main_arg13_8 (c : Dev nD) : W8 m ρ c (Proc.devRef .tc main_arg13) = m ((c : Thread nD τ).loc main_arg13) :=
  ((by keep_stretch hostOps2 : W8 m ρ c (Proc.devRef .tc main_arg13) = W7 m ρ c (Proc.devRef .tc main_arg13))).trans (keep_main_arg13_7 m ρ c)
theorem keep_main_arg13_9 (c : Dev nD) : W9 m ρ c (Proc.devRef .tc main_arg13) = m ((c : Thread nD τ).loc main_arg13) :=
  ((by keep_stretch hostOps2_1 : W9 m ρ c (Proc.devRef .tc main_arg13) = W8 m ρ c (Proc.devRef .tc main_arg13))).trans (keep_main_arg13_8 m ρ c)
theorem keep_main_arg13_10 (c : Dev nD) : W10 m ρ c (Proc.devRef .tc main_arg13) = m ((c : Thread nD τ).loc main_arg13) :=
  (W10_of_ne m ρ c main_arg13 (by decide)).trans (keep_main_arg13_9 m ρ c)
theorem keep_main_arg13_11 (c : Dev nD) : W11 m ρ c (Proc.devRef .tc main_arg13) = m ((c : Thread nD τ).loc main_arg13) :=
  ((by keep_stretch hostOps3 : W11 m ρ c (Proc.devRef .tc main_arg13) = W10 m ρ c (Proc.devRef .tc main_arg13))).trans (keep_main_arg13_10 m ρ c)
theorem keep_main_arg13_12 (c : Dev nD) : W12 m ρ c (Proc.devRef .tc main_arg13) = m ((c : Thread nD τ).loc main_arg13) :=
  ((by keep_stretch hostOps3_1 : W12 m ρ c (Proc.devRef .tc main_arg13) = W11 m ρ c (Proc.devRef .tc main_arg13))).trans (keep_main_arg13_11 m ρ c)

end Cert.KernelIdeal.KeepB

end
-- ==== Proof.StretchA.lean ====
/-
  The stretches of host operations before the idealized kernel's first call, read as the reference's stages.

  Each lemma takes any buffer contents `Wy` at the start of a stretch, knowing only what the buffers the stretch reads
  hold, and concludes what one buffer holds after the stretch.  From the edge list alone the program builds the source and
  destination columns (each row of the edge list followed by the self loops), the in-degrees (a scatter-add of ones at the
  destination column), the node weights (1/√d at a degree d > 0, else 0) and the edge weights (the product of the two
  endpoints' node weights, each gathered at the column's entry, a negative entry wrapped by the node count first).  The
  reference applies the same operations to the same argument, so once the inputs are named as the reference's stages the
  two terms are one term.
-/
import proofs.«179557_j45509473469000_2_alg».proof.Proof.Gen.KernelIdeal.Launch
import proofs.«179557_j45509473469000_2_alg».proof.Proof.ReadP
import Idealize.ShloMosaic.Lib.StableHlo.Run

set_option maxRecDepth 16384

noncomputable section

namespace Cert.KernelIdeal.StretchA

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

section Lists
variable {F : FTy → Type} [FloatOps F]
/-- The first stretch, up to the two index columns … -/
abbrev hostOps0a : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- … and from there to the degree mask, the inverse roots and the zero they fall back to. -/
abbrev hostOps0b : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]
theorem hostOps0_split : (hostOps0 : List (HloOp τ sig (Elt F))) = hostOps0a ++ hostOps0b := rfl
end Lists

variable (Wy : Valuation τ sig (Elt Ideal))

theorem s0b_v12 (x1 : (⟨Cert.ReferenceIdeal.S2x800000, .i32⟩ : BufTy).Contents (Elt Ideal)) (h6 : Wy (Proc.devRef .tc main_v6) = Cert.ReferenceIdeal.ReadP.val_main_v6 (F := Ideal) x1) :
    StableHlo.after (hostOps0b (F := Ideal)) Wy (Proc.devRef .tc main_v12) = Cert.ReferenceIdeal.ReadP.val_main_v13 (F := Ideal) x1 := by
  dsimp only [hostOps0b]
  after_results_simp
  rw [h6]
  rfl
theorem s0b_v13 (x1 : (⟨Cert.ReferenceIdeal.S2x800000, .i32⟩ : BufTy).Contents (Elt Ideal)) (h6 : Wy (Proc.devRef .tc main_v6) = Cert.ReferenceIdeal.ReadP.val_main_v6 (F := Ideal) x1) :
    StableHlo.after (hostOps0b (F := Ideal)) Wy (Proc.devRef .tc main_v13) = Cert.ReferenceIdeal.ReadP.val_main_v14 (F := Ideal) x1 := by
  dsimp only [hostOps0b]
  after_results_simp
  rw [h6]
  rfl
theorem s0b_cst2 : StableHlo.after (hostOps0b (F := Ideal)) Wy (Proc.devRef .tc main_cst_2) = Cert.ReferenceIdeal.ReadP.val_main_cst_2 (F := Ideal) := by
  dsimp only [hostOps0b]
  after_results_simp
  rfl
/-- The second part of the first stretch leaves the two columns alone. -/
theorem s0b_v3 : StableHlo.after (hostOps0b (F := Ideal)) Wy (Proc.devRef .tc main_v3) = Wy (Proc.devRef .tc main_v3) := by
  dsimp only [hostOps0b]
  after_results_simp
theorem s0b_v6 : StableHlo.after (hostOps0b (F := Ideal)) Wy (Proc.devRef .tc main_v6) = Wy (Proc.devRef .tc main_v6) := by
  dsimp only [hostOps0b]
  after_results_simp

/-- The select between the inverse roots and zero, over any mask, roots and zero. -/
theorem where_after (a : (⟨S50000, .i1⟩ : BufTy).Contents (Elt Ideal)) (b : (⟨S50000, .f32⟩ : BufTy).Contents (Elt Ideal)) (cz : (⟨S_, .f32⟩ : BufTy).Contents (Elt Ideal))
    (h12 : Wy (Proc.devRef .tc main_v12) = a) (h13 : Wy (Proc.devRef .tc main_v13) = b) (hc : Wy (Proc.devRef .tc main_cst_2) = cz) :
    StableHlo.after (hostOps0_1 (F := Ideal)) Wy (Proc.devRef .tc main_v14) = select a b (broadcastInDim S50000 ![] bcast_S_S50000 (id cz)) := by
  dsimp only [hostOps0_1]
  after_results_simp
  rw [h12, h13, hc]
  rfl
theorem where_v3 : StableHlo.after (hostOps0_1 (F := Ideal)) Wy (Proc.devRef .tc main_v3) = Wy (Proc.devRef .tc main_v3) := by
  dsimp only [hostOps0_1]
  after_results_simp
theorem where_v6 : StableHlo.after (hostOps0_1 (F := Ideal)) Wy (Proc.devRef .tc main_v6) = Wy (Proc.devRef .tc main_v6) := by
  dsimp only [hostOps0_1]
  after_results_simp

/-- The node weights: 1/√d at in-degree d > 0, else 0. -/
theorem s01_v14 (x1 : (⟨Cert.ReferenceIdeal.S2x800000, .i32⟩ : BufTy).Contents (Elt Ideal)) (h12 : Wy (Proc.devRef .tc main_v12) = Cert.ReferenceIdeal.ReadP.val_main_v13 (F := Ideal) x1)
    (h13 : Wy (Proc.devRef .tc main_v13) = Cert.ReferenceIdeal.ReadP.val_main_v14 (F := Ideal) x1) (hc : Wy (Proc.devRef .tc main_cst_2) = Cert.ReferenceIdeal.ReadP.val_main_cst_2 (F := Ideal)) :
    StableHlo.after (hostOps0_1 (F := Ideal)) Wy (Proc.devRef .tc main_v14) = Cert.ReferenceIdeal.ReadP.val_main_v15 (F := Ideal) x1 :=
  (where_after Wy _ _ _ h12 h13 hc).trans rfl

/-- The edge weights: the product of the two endpoints' node weights. -/
theorem s02_v29 (x1 : (⟨Cert.ReferenceIdeal.S2x800000, .i32⟩ : BufTy).Contents (Elt Ideal)) (h14 : Wy (Proc.devRef .tc main_v14) = Cert.ReferenceIdeal.ReadP.val_main_v15 (F := Ideal) x1)
    (h3 : Wy (Proc.devRef .tc main_v3) = Cert.ReferenceIdeal.ReadP.val_main_v3 (F := Ideal) x1) (h6 : Wy (Proc.devRef .tc main_v6) = Cert.ReferenceIdeal.ReadP.val_main_v6 (F := Ideal) x1) :
    StableHlo.after (hostOps0_2 (F := Ideal)) Wy (Proc.devRef .tc main_v29) = Cert.ReferenceIdeal.ReadP.val_main_v30 (F := Ideal) x1 := by
  dsimp only [hostOps0_2]
  after_results_simp
  rw [h14, h3, h6]
  rfl

end Cert.KernelIdeal.StretchA

end
-- ==== Proof.StretchB.lean ====
/-
  The stretches of host operations after each of the idealized kernel's first three calls, read as the reference's stages.

  Each lemma takes any buffer contents `Wy` at the start of a stretch, knowing only what the buffers the stretch reads
  hold, and concludes what one buffer holds after the stretch.  After a call has left h = a · W in its result array the
  program gathers the rows of h at the source column (a negative entry wrapped by the node count first), scales row e by
  the edge weight of e, scatter-adds the rows at the destination column into zeros, adds the bias row to every row and
  rectifies.  The reference applies the same operations, so once the inputs are named as the reference's stages the two
  terms are one term.  (The reference recomputes the edge weights in every layer; its second and third copies are named
  in the hypotheses, and identified with the first elsewhere.)
-/
import proofs.«179557_j45509473469000_2_alg».proof.Proof.Gen.KernelIdeal.Launch
import proofs.«179557_j45509473469000_2_alg».proof.Proof.ReadP
import Idealize.ShloMosaic.Lib.StableHlo.Run

set_option maxRecDepth 16384

noncomputable section

namespace Cert.KernelIdeal.StretchB

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

variable (Wy : Valuation τ sig (Elt Ideal))

/-! ## After call 1: gather, scale, scatter-add, bias; then the rectifier -/

theorem s1_add (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (h3 : Wy (Proc.devRef .tc main_v3) = Cert.ReferenceIdeal.ReadP.val_main_v3 (F := Ideal) x1)
    (h6 : Wy (Proc.devRef .tc main_v6) = Cert.ReferenceIdeal.ReadP.val_main_v6 (F := Ideal) x1) (h29 : Wy (Proc.devRef .tc main_v29) = Cert.ReferenceIdeal.ReadP.val_main_v30 (F := Ideal) x1)
    (hh : Wy (Proc.devRef .tc main_v30) = Cert.ReferenceIdeal.ReadP.val_main_v7 (F := Ideal) x0 x2) (hb : Wy (Proc.devRef .tc main_arg3) = x3) :
    StableHlo.after (hostOps1 (F := Ideal)) Wy (Proc.devRef .tc main_v46) = Cert.ReferenceIdeal.ReadP.val_main_v46 (F := Ideal) x0 x1 x2 x3 := by
  dsimp only [hostOps1]
  after_results_simp
  rw [h3, h6, h29, hh, hb]
  rfl
/-- The rectifier over any array. -/
theorem relu1_after (a : (⟨S50000x128, .f32⟩ : BufTy).Contents (Elt Ideal)) (h : Wy (Proc.devRef .tc main_v46) = a) :
    StableHlo.after (hostOps1_1 (F := Ideal)) Wy (Proc.devRef .tc main_v47)
      = maximumf (F := Ideal) (φ := .f32) a (broadcastInDim S50000x128 ![] bcast_S_S50000x128 (constant (F := Ideal) S_ .f32 0x00000000#32)) := by
  dsimp only [hostOps1_1]
  after_results_simp
  rw [h]
  rfl
theorem s1_relu (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (h : Wy (Proc.devRef .tc main_v46) = Cert.ReferenceIdeal.ReadP.val_main_v46 (F := Ideal) x0 x1 x2 x3) :
    StableHlo.after (hostOps1_1 (F := Ideal)) Wy (Proc.devRef .tc main_v47) = Cert.ReferenceIdeal.ReadP.val_main_v47 (F := Ideal) x0 x1 x2 x3 :=
  (relu1_after Wy _ h).trans rfl

/-! ## After call 2: gather, scale, scatter-add, bias; then the rectifier -/

theorem s2_add (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (h3 : Wy (Proc.devRef .tc main_v3) = Cert.ReferenceIdeal.ReadP.val_main_v3 (F := Ideal) x1)
    (h6 : Wy (Proc.devRef .tc main_v6) = Cert.ReferenceIdeal.ReadP.val_main_v6 (F := Ideal) x1) (h29 : Wy (Proc.devRef .tc main_v29) = Cert.ReferenceIdeal.ReadP.val_main_v71 (F := Ideal) x1)
    (hh : Wy (Proc.devRef .tc main_v48) = Cert.ReferenceIdeal.ReadP.val_main_v48 (F := Ideal) x0 x1 x2 x3 x4) (hb : Wy (Proc.devRef .tc main_arg5) = x5) :
    StableHlo.after (hostOps2 (F := Ideal)) Wy (Proc.devRef .tc main_v64) = Cert.ReferenceIdeal.ReadP.val_main_v87 (F := Ideal) x0 x1 x2 x3 x4 x5 := by
  dsimp only [hostOps2]
  after_results_simp
  rw [h3, h6, h29, hh, hb]
  rfl
/-- The rectifier over any array. -/
theorem relu2_after (a : (⟨S50000x64, .f32⟩ : BufTy).Contents (Elt Ideal)) (h : Wy (Proc.devRef .tc main_v64) = a) :
    StableHlo.after (hostOps2_1 (F := Ideal)) Wy (Proc.devRef .tc main_v65)
      = maximumf (F := Ideal) (φ := .f32) a (broadcastInDim S50000x64 ![] bcast_S_S50000x64 (constant (F := Ideal) S_ .f32 0x00000000#32)) := by
  dsimp only [hostOps2_1]
  after_results_simp
  rw [h]
  rfl
theorem s2_relu (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (h : Wy (Proc.devRef .tc main_v64) = Cert.ReferenceIdeal.ReadP.val_main_v87 (F := Ideal) x0 x1 x2 x3 x4 x5) :
    StableHlo.after (hostOps2_1 (F := Ideal)) Wy (Proc.devRef .tc main_v65) = Cert.ReferenceIdeal.ReadP.val_main_v88 (F := Ideal) x0 x1 x2 x3 x4 x5 :=
  (relu2_after Wy _ h).trans rfl

/-! ## After call 3: gather, scale, scatter-add, bias; then the rectifier -/

theorem s3_add (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) (x7 : (⟨Cert.ReferenceIdeal.S32, .f32⟩ : BufTy).Contents (Elt Ideal)) (h3 : Wy (Proc.devRef .tc main_v3) = Cert.ReferenceIdeal.ReadP.val_main_v3 (F := Ideal) x1)
    (h6 : Wy (Proc.devRef .tc main_v6) = Cert.ReferenceIdeal.ReadP.val_main_v6 (F := Ideal) x1) (h29 : Wy (Proc.devRef .tc main_v29) = Cert.ReferenceIdeal.ReadP.val_main_v112 (F := Ideal) x1)
    (hh : Wy (Proc.devRef .tc main_v66) = Cert.ReferenceIdeal.ReadP.val_main_v89 (F := Ideal) x0 x1 x2 x3 x4 x5 x6) (hb : Wy (Proc.devRef .tc main_arg7) = x7) :
    StableHlo.after (hostOps3 (F := Ideal)) Wy (Proc.devRef .tc main_v82) = Cert.ReferenceIdeal.ReadP.val_main_v128 (F := Ideal) x0 x1 x2 x3 x4 x5 x6 x7 := by
  dsimp only [hostOps3]
  after_results_simp
  rw [h3, h6, h29, hh, hb]
  rfl
/-- The rectifier over any array. -/
theorem relu3_after (a : (⟨S50000x32, .f32⟩ : BufTy).Contents (Elt Ideal)) (h : Wy (Proc.devRef .tc main_v82) = a) :
    StableHlo.after (hostOps3_1 (F := Ideal)) Wy (Proc.devRef .tc main_v83)
      = maximumf (F := Ideal) (φ := .f32) a (broadcastInDim S50000x32 ![] bcast_S_S50000x32 (constant (F := Ideal) S_ .f32 0x00000000#32)) := by
  dsimp only [hostOps3_1]
  after_results_simp
  rw [h]
  rfl
theorem s3_relu (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S64x32, .f32⟩ : BufTy).Contents (Elt Ideal)) (x7 : (⟨Cert.ReferenceIdeal.S32, .f32⟩ : BufTy).Contents (Elt Ideal)) (h : Wy (Proc.devRef .tc main_v82) = Cert.ReferenceIdeal.ReadP.val_main_v128 (F := Ideal) x0 x1 x2 x3 x4 x5 x6 x7) :
    StableHlo.after (hostOps3_1 (F := Ideal)) Wy (Proc.devRef .tc main_v83) = Cert.ReferenceIdeal.ReadP.val_main_v129 (F := Ideal) x0 x1 x2 x3 x4 x5 x6 x7 :=
  (relu3_after Wy _ h).trans rfl

/-! ## Before the last call: the three bias vectors as one-row arrays -/

theorem s32_main_v84 (x9 : (⟨Cert.ReferenceIdeal.S64, .f32⟩ : BufTy).Contents (Elt Ideal)) (h : Wy (Proc.devRef .tc main_arg9) = x9) :
    StableHlo.after (hostOps3_2 (F := Ideal)) Wy (Proc.devRef .tc main_v84) = shapeCast S1x64 x9 shapeCasts_S64_S1x64 := by
  dsimp only [hostOps3_2]
  after_results_simp
  rw [h]
  rfl

theorem s32_main_v85 (x11 : (⟨Cert.ReferenceIdeal.S128, .f32⟩ : BufTy).Contents (Elt Ideal)) (h : Wy (Proc.devRef .tc main_arg11) = x11) :
    StableHlo.after (hostOps3_2 (F := Ideal)) Wy (Proc.devRef .tc main_v85) = shapeCast S1x128 x11 shapeCasts_S128_S1x128 := by
  dsimp only [hostOps3_2]
  after_results_simp
  rw [h]
  rfl

theorem s32_main_v86 (x13 : (⟨Cert.ReferenceIdeal.S256, .f32⟩ : BufTy).Contents (Elt Ideal)) (h : Wy (Proc.devRef .tc main_arg13) = x13) :
    StableHlo.after (hostOps3_2 (F := Ideal)) Wy (Proc.devRef .tc main_v86) = shapeCast S1x256 x13 shapeCasts_S256_S1x256 := by
  dsimp only [hostOps3_2]
  after_results_simp
  rw [h]
  rfl

end Cert.KernelIdeal.StretchB

end
-- ==== Proof.NrmRef.lean ====
/-
  The reference recomputes the degrees, the node weights and the edge weights in each of its three layers, from the same
  edge list by the same operations.  The three copies are one function of the edge list, stage by stage: the in-degrees,
  the mask of the positive degrees, the inverse roots, the node weights, the two gathers at the wrapped columns and their
  product.
-/
import proofs.«179557_j45509473469000_2_alg».proof.Proof.ReadP

set_option maxRecDepth 16384

noncomputable section

namespace Cert.ReferenceIdeal.Nrm

open Cert.ReferenceIdeal Cert.ReferenceIdeal.ReadP Idealize.ShloMosaic

variable (x1 : (⟨S2x800000, .i32⟩ : BufTy).Contents (Elt Ideal))

theorem deg2 : val_main_v52 (F := Ideal) x1 = val_main_v11 x1 := rfl
theorem deg3 : val_main_v93 (F := Ideal) x1 = val_main_v11 x1 := rfl
theorem dinv2 : val_main_v56 (F := Ideal) x1 = val_main_v15 x1 := by
  unfold val_main_v56 val_main_v15 val_main_v54 val_main_v13 val_main_v55 val_main_v14
  rw [deg2]; rfl
theorem dinv3 : val_main_v97 (F := Ideal) x1 = val_main_v15 x1 := by
  unfold val_main_v97 val_main_v15 val_main_v95 val_main_v13 val_main_v96 val_main_v14
  rw [deg3]; rfl
theorem nrm2 : val_main_v71 (F := Ideal) x1 = val_main_v30 x1 := by
  unfold val_main_v71 val_main_v30 val_main_v63 val_main_v22 val_main_v70 val_main_v29
  rw [dinv2]; rfl
theorem nrm3 : val_main_v112 (F := Ideal) x1 = val_main_v30 x1 := by
  unfold val_main_v112 val_main_v30 val_main_v104 val_main_v22 val_main_v111 val_main_v29
  rw [dinv3]; rfl

end Cert.ReferenceIdeal.Nrm

end
-- ==== Proof.LibMatmul.lean ====
/-
  A matrix product into a zero accumulator, and the host's product without one, read at an entry.

  For the plain dimension numbers of an M×K by K×N product (contract the left operand's second axis with the right
  operand's first, no batch axis), the product accumulated into the zero splat is, at entry (p, q) and over the
  extended reals, the sum over k of the left operand at (p, k) times the right operand at (k, q): the accumulator
  contributes 0 + · and the one-axis contraction index is its coordinate.  The host's product is the same sum.
-/
import Idealize.ShloMosaic.PureOps.Ideal.Laws
import Idealize.ShloMosaic.Lib.ValueIdx

noncomputable section

namespace Cert.LibMatmul

open Idealize.ShloMosaic Idealize.ShloMosaic.ValueIdx

variable (M K N : Nat)

/-- The left operand's index at output entry `i` and contraction index `q`: row of `i`, column `q`. -/
theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
/-- The right operand's index: row `q`, column of `i`. -/
theorem plain_rhs0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

variable {M K N}

/-- The contraction sum of a plain product at entry (p, q), re-indexed by the contracted coordinate. -/
theorem sum_contr_plain (x : (⟨2, ![M, K]⟩ : Shape).Idx → EReal) (w : (⟨2, ![K, N]⟩ : Shape).Idx → EReal) (p : Fin M) (q : Fin N) :
    (∑ k : (DotDims.plain M K N).contr.Idx, x ((DotDims.plain M K N).lhsIdx (ix2 p q) k) * w ((DotDims.plain M K N).rhsIdx (ix2 p q) k))
      = ∑ k : Fin K, x (ix2 p k) * w (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 M K N _ _).trans hk
      | ⟨1, _⟩ => exact plain_rhs1 M K N _ _)
  rw [el, er]

/-- The host's product (no accumulator) at entry (p, q): the same sum. -/
theorem dotGeneral_plain_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply]
  exact sum_contr_plain x w p q

/-- The product into the zero accumulator at entry (p, q): the sum over k of x(p, k) · w(k, q). -/
theorem matmul_plain_zero_apply {φ₁ φ₂ : FTy} (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply]
  exact sum_contr_plain x w p q

end Cert.LibMatmul

end
-- ==== Proof.Mat0.lean ====
/-
  The first layer's pipelined product, as one function of the arrays it finds.

  The call walks ten row blocks of 5000 rows.  At block t the body multiplies rows 5000t … 5000t + 4999 of the
  [50000, 256] operand by the whole [256, 128] weight matrix (rounding the operands to a narrower format first,
  which over the extended reals changes nothing) and stores the [5000, 128] product; the write-backs tile the
  [50000, 128] result.  Entry (r, q) of the result is therefore the sum over k of operand(r, k) · weight(k, q):
  the host's product of the two whole arrays.  This holds for any contents the call is entered with.
-/
import proofs.«179557_j45509473469000_2_alg».proof.Proof.Gen.KernelIdeal.Frame
import proofs.«179557_j45509473469000_2_alg».proof.Proof.Gen.ReferenceIdeal
import proofs.«179557_j45509473469000_2_alg».proof.Proof.LibMatmul
import Idealize.ShloMosaic.Lib.Pipeline.Value

set_option maxRecDepth 16384

noncomputable section

namespace Cert.KernelIdeal.Mat0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored block at (p, q): the sum over k of the operand block at (p, k) times the weights at (k, q). -/
theorem pay_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) :=
  Cert.LibMatmul.matmul_plain_zero_apply (M := 5000) (K := 256) (N := 128) (φ₁ := .bf16) (φ₂ := .bf16) none x0 x1 p q

/-- The block index maps over the ten points: the operand and the result move down one row block per point, the
    weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array product the call computes. -/
abbrev prod (x : S50000x256.Idx → EReal) (w : S256x128.Idx → EReal) : S50000x128.Idx → EReal :=
  Host.dotGeneral (F := Ideal) (φ₁ := .f32) (φ₂ := .f32) Cert.ReferenceIdeal.dot_S50000x256_S256x128_S50000x128_1_0_0_1_n_n none x w

/-- The host's product at (r, q). -/
theorem prod_apply (x : S50000x256.Idx → EReal) (w : S256x128.Idx → EReal) (r : Fin 50000) (q : Fin 128) :
    prod x w (ix2 r q) = ∑ k : Fin 256, x (ix2 r k) * w (ix2 k q) :=
  Cert.LibMatmul.dotGeneral_plain_apply (M := 50000) (K := 256) (N := 128) (φ₁ := .f32) (φ₂ := .f32) none .single x w r q

/-- What point t writes back is block t of the product of the arrays as the call finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  have ht : t.val < 10 := Nat.lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hr : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  show k0_pay1 (iblk0 V c 0 t) (iblk0 V c 1 t) (ix2 p q) = prod (V c main_arg0) (V c main_arg2) (((cfg0.win 2).blk t).view.emb (ix2 p q))
  rw [hr, prod_apply]
  refine (pay_apply (iblk0 V c 0 t) (iblk0 V c 1 t) p q).trans ?_
  refine Finset.sum_congr rfl fun k _ => ?_
  have h0 : ((cfg0.win 0).blk t).view.emb (ix2 p k) = ix2 (⟨t.val * 5000 + p.val, by omega⟩ : Fin 50000) k := by
    funext a; apply Fin.ext
    match a with
    | ⟨0, _⟩ => show win0_0.index t (0 : Fin 2) * 5000 + 1 * p.val = t.val * 5000 + p.val; rw [e0]; omega
    | ⟨1, _⟩ => show win0_0.index t (1 : Fin 2) * 256 + 1 * k.val = k.val; rw [e1]; omega
  have h1 : ((cfg0.win 1).blk t).view.emb (ix2 k q) = ix2 k q := by
    funext a; apply Fin.ext
    match a with
    | ⟨0, _⟩ => show win0_1.index t (0 : Fin 2) * 256 + 1 * k.val = k.val; rw [e2]; omega
    | ⟨1, _⟩ => show win0_1.index t (1 : Fin 2) * 128 + 1 * q.val = q.val; rw [e3]; omega
  refine congrArg₂ (fun (a b : EReal) => a * b) ?_ ?_
  · exact congrArg (V c main_arg0) h0
  · exact congrArg (V c main_arg2) h1

/-- An index is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks cover the result: row r lies in block r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 128 ≤ (i 1).val ∧ (i 1).val < win0_2.index t (1 : Fin 2) * 128 + 128; rw [e5]; omega

/-- The result array after the call: the product of the operand and the weights as the call found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Mat0

end
-- ==== Proof.Mat1.lean ====
/-
  The second layer's pipelined product, as one function of the arrays it finds.

  The call walks ten row blocks of 5000 rows.  At block t the body multiplies rows 5000t … 5000t + 4999 of the
  [50000, 128] operand by the whole [128, 64] weight matrix (rounding the operands to a narrower format first,
  which over the extended reals changes nothing) and stores the [5000, 64] product; the write-backs tile the
  [50000, 64] result.  Entry (r, q) of the result is therefore the sum over k of operand(r, k) · weight(k, q):
  the host's product of the two whole arrays.  This holds for any contents the call is entered with.
-/
import proofs.«179557_j45509473469000_2_alg».proof.Proof.Gen.KernelIdeal.Frame
import proofs.«179557_j45509473469000_2_alg».proof.Proof.Gen.ReferenceIdeal
import proofs.«179557_j45509473469000_2_alg».proof.Proof.LibMatmul
import Idealize.ShloMosaic.Lib.Pipeline.Value

set_option maxRecDepth 16384

noncomputable section

namespace Cert.KernelIdeal.Mat1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored block at (p, q): the sum over k of the operand block at (p, k) times the weights at (k, q). -/
theorem pay_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) :=
  (Cert.LibMatmul.matmul_plain_zero_apply (M := 5000) (K := 128) (N := 64) (φ₁ := .bf16) (φ₂ := .bf16) none
    (shapeCast S5000x128 x0 (by decide)) x1 p q).trans (by rw [shapeCast_self])

/-- The block index maps over the ten points: the operand and the result move down one row block per point, the
    weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole-array product the call computes. -/
abbrev prod (x : S50000x128.Idx → EReal) (w : S128x64.Idx → EReal) : S50000x64.Idx → EReal :=
  Host.dotGeneral (F := Ideal) (φ₁ := .f32) (φ₂ := .f32) Cert.ReferenceIdeal.dot_S50000x128_S128x64_S50000x64_1_0_0_1_n_n none x w

/-- The host's product at (r, q). -/
theorem prod_apply (x : S50000x128.Idx → EReal) (w : S128x64.Idx → EReal) (r : Fin 50000) (q : Fin 64) :
    prod x w (ix2 r q) = ∑ k : Fin 128, x (ix2 r k) * w (ix2 k q) :=
  Cert.LibMatmul.dotGeneral_plain_apply (M := 50000) (K := 128) (N := 64) (φ₁ := .f32) (φ₂ := .f32) none .single x w r q

/-- What point t writes back is block t of the product of the arrays as the call finds them. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  have ht : t.val < 10 := Nat.lt_of_lt_of_eq t.isLt N_1
  funext j
  obtain ⟨p, q, rfl⟩ : ∃ (p : Fin 5000) (q : Fin 64), j = ix2 p q := ⟨j 0, j 1, eq_ix2 j⟩
  have hp : p.val < 5000 := p.isLt
  have hr : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; rw [e4]; omega
    | ⟨1, _⟩ => show win1_2.index t (1 : Fin 2) * 64 + 1 * q.val = q.val; rw [e5]; omega
  show k1_pay1 (iblk1 V c 0 t) (iblk1 V c 1 t) (ix2 p q) = prod (V c main_v47) (V c main_arg4) (((cfg1.win 2).blk t).view.emb (ix2 p q))
  rw [hr, prod_apply]
  refine (pay_apply (iblk1 V c 0 t) (iblk1 V c 1 t) p q).trans ?_
  refine Finset.sum_congr rfl fun k _ => ?_
  have h0 : ((cfg1.win 0).blk t).view.emb (ix2 p k) = ix2 (⟨t.val * 5000 + p.val, by omega⟩ : Fin 50000) k := by
    funext a; apply Fin.ext
    match a with
    | ⟨0, _⟩ => show win1_0.index t (0 : Fin 2) * 5000 + 1 * p.val = t.val * 5000 + p.val; rw [e0]; omega
    | ⟨1, _⟩ => show win1_0.index t (1 : Fin 2) * 128 + 1 * k.val = k.val; rw [e1]; omega
  have h1 : ((cfg1.win 1).blk t).view.emb (ix2 k q) = ix2 k q := by
    funext a; apply Fin.ext
    match a with
    | ⟨0, _⟩ => show win1_1.index t (0 : Fin 2) * 128 + 1 * k.val = k.val; rw [e2]; omega
    | ⟨1, _⟩ => show win1_1.index t (1 : Fin 2) * 64 + 1 * q.val = q.val; rw [e3]; omega
  refine congrArg₂ (fun (a b : EReal) => a * b) ?_ ?_
  · exact congrArg (V c main_v47) h0
  · exact congrArg (V c main_arg4) h1

/-- An index is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- The ten row blocks cover the result: row r lies in block r / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, htv]; omega
  | ⟨1, _⟩ => show win1_2.index t (1 : Fin 2) * 64 ≤ (i 1).val ∧ (i 1).val < win1_2.index t (1 : Fin 2) * 64 + 64; rw [e5]; omega

/-- The result array after the call: the product of the operand and the weights as the call found them. -/
theorem final (c : Dev nD) : (dat1 V c).arrAt 2 cfg1.N = prod (V c main_v47) (V c main_arg4) :=
  (dat1 V c).arrAt_eq_of_cover 2 (prod (V c main_v47) (V c main_arg4)) (fun t _ => flushed_eq V c t) cover

end Cert.KernelIdeal.Mat1

end
-- ==== Proof.Mat2.lean ====
/-
  The third layer's pipelined product, as one function of the arrays it finds.

  The call walks ten row blocks of 5000 rows.  At block t the body multiplies rows 5000t … 5000t + 4999 of the
  [50000, 64] operand by the whole [64, 32] weight matrix (rounding the operands to a narrower format first,
  which over the extended reals changes nothing) and stores the [5000, 32] product; the write-backs tile the
  [50000, 32] result.  Entry (r, q) of the result is therefore the sum over k of operand(r, k) · weight(k, q):
  the host's product of the two whole arrays.  This holds for any contents the call is entered with.
-/
import proofs.«179557_j45509473469000_2_alg».proof.Proof.Gen.KernelIdeal.Frame
import proofs.«179557_j45509473469000_2_alg».proof.Proof.Gen.ReferenceIdeal
import proofs.«179557_j45509473469000_2_alg».proof.Proof.LibMatmul
import Idealize.ShloMosaic.Lib.Pipeline.Value

set_option maxRecDepth 16384

noncomputable section

namespace Cert.KernelIdeal.Mat2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored block at (p, q): the sum over k of the operand block at (p, k) times the weights at (k, q). -/
theorem pay_apply (x0 : Vec Ideal S5000x64 .f32) (x1 : Vec Ideal S64x32 .f32) (p : Fin 5000) (q : Fin 32) :
    k2_pay1 (F := Ideal) x0 x1 (ix2 p q) = ∑ k : Fin 64, x0 (ix2 p k) * x1 (ix2 k q) :=
  (Cert.LibMatmul.matmul_plain_zero_apply (M := 5000) (K := 64) (N := 32) (φ₁ := .bf16) (φ₂ := .bf16) none
    (shapeCast S5000x64 x0 (by decide)) x1 p q).trans (by rw [shapeCast_self])

/-- The block index maps over the ten points: the operand and the result move down one row block per point, the
    weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole-array product the call computes. -/
abbrev prod (x : S50000x64.Idx → EReal) (w : S64x32.Idx → EReal) : S50000x32.Idx → EReal :=
  Host.dotGeneral (F := Ideal) (φ₁ := .f32) (φ₂ := .f32) Cert.ReferenceIdeal.dot_S50000x64_S64x32_S50000x32_1_0_0_1_n_n none x w

/-- The host's product at (r, q). -/
theorem prod_apply (x : S50000x64.Idx → EReal) (w : S64x32.Idx → EReal) (r : Fin 50000) (q : Fin 32) :
    prod x w (ix2 r q) = ∑ k : Fin 64, x (ix2 r k) * w (ix2 k q) :=
  Cert.LibMatmul.dotGeneral_plain_apply (M := 50000) (K := 64) (N := 32) (φ₁ := .f32) (φ₂ := .f32) none .single x w r q

/-- What point t writes back is block t of the product of the arrays as the call finds them. -/
theorem flushed_eq (c : Dev nD) (t : Fin cfg2.N) :
    (dat2 V c).flushed 2 t = ((cfg2.win 2).blk t).view.read (Elt Ideal) (prod (V c main_v65) (V c main_arg6)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  obtain ⟨e0, e1, e2, e3, e4, e5⟩ := idx_facts t
  have ht : t.val < 10 := Nat.lt_of_lt_of_eq t.isLt N_2
  funext j
  obtain ⟨p, q, rfl⟩ : ∃ (p : Fin 5000) (q : Fin 32), j = ix2 p q := ⟨j 0, j 1, eq_ix2 j⟩
  have hp : p.val < 5000 := p.isLt
  have hr : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 32 + 1 * q.val = q.val; rw [e5]; omega
  show k2_pay1 (iblk2 V c 0 t) (iblk2 V c 1 t) (ix2 p q) = prod (V c main_v65) (V c main_arg6) (((cfg2.win 2).blk t).view.emb (ix2 p q))
  rw [hr, prod_apply]
  refine (pay_apply (iblk2 V c 0 t) (iblk2 V c 1 t) p q).trans ?_
  refine Finset.sum_congr rfl fun k _ => ?_
  have h0 : ((cfg2.win 0).blk t).view.emb (ix2 p k) = ix2 (⟨t.val * 5000 + p.val, by omega⟩ : Fin 50000) k := by
    funext a; apply Fin.ext
    match a with
    | ⟨0, _⟩ => show win2_0.index t (0 : Fin 2) * 5000 + 1 * p.val = t.val * 5000 + p.val; rw [e0]; omega
    | ⟨1, _⟩ => show win2_0.index t (1 : Fin 2) * 64 + 1 * k.val = k.val; rw [e1]; omega
  have h1 : ((cfg2.win 1).blk t).view.emb (ix2 k q) = ix2 k q := by
    funext a; apply Fin.ext
    match a with
    | ⟨0, _⟩ => show win2_1.index t (0 : Fin 2) * 64 + 1 * k.val = k.val; rw [e2]; omega
    | ⟨1, _⟩ => show win2_1.index t (1 : Fin 2) * 32 + 1 * q.val = q.val; rw [e3]; omega
  refine congrArg₂ (fun (a b : EReal) => a * b) ?_ ?_
  · exact congrArg (V c main_v65) h0
  · exact congrArg (V c main_arg6) h1

/-- An index is in point t's block iff each coordinate is in the block's range on its axis. -/
theorem mem_blk (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v66).slice (win2_2.rect t)).set ↔ _
  rw [View.set_slice_whole, Rect.mem_set_unit]
  exact Iff.rfl

/-- The ten row blocks cover the result: row r lies in block r / 5000. -/
theorem cover (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  have hN : cfg2.N = 10 := N_2
  obtain ⟨t, htv⟩ : ∃ t : Fin cfg2.N, t.val = (i 0).val / 5000 := ⟨⟨(i 0).val / 5000, by rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, htv]; omega
  | ⟨1, _⟩ => show win2_2.index t (1 : Fin 2) * 32 ≤ (i 1).val ∧ (i 1).val < win2_2.index t (1 : Fin 2) * 32 + 32; rw [e5]; omega

/-- The result array after the call: the product of the operand and the weights as the call found them. -/
theorem final (c : Dev nD) : (dat2 V c).arrAt 2 cfg2.N = prod (V c main_v65) (V c main_arg6) :=
  (dat2 V c).arrAt_eq_of_cover 2 (prod (V c main_v65) (V c main_arg6)) (fun t _ => flushed_eq V c t) cover

end Cert.KernelIdeal.Mat2

end
-- ==== Proof.Chain.lean ====
/-
  The idealized kernel's program, boundary by boundary, as the reference's stages of the same arguments.

  The program is fourteen segments: stretches of host operations and four pipelined calls.  At each boundary one buffer
  matters — the layer's activations or the call's product — and it holds the stage of the reference's program that
  computes the same quantity: the three graph layers h ↦ max(Â · (h W) + b, 0) with Â the normalised adjacency given by
  the index columns and the edge weights, and then the inputs of the fused decoder.  Each step cites the stretch's
  lemma (the same host operations applied to equal inputs) or the call's product lemma, and walks the buffers that
  persist (the columns, the edge weights, the arguments) back to where their contents are known.
-/
import proofs.«179557_j45509473469000_2_alg».proof.Proof.KeepA
import proofs.«179557_j45509473469000_2_alg».proof.Proof.KeepB
import proofs.«179557_j45509473469000_2_alg».proof.Proof.StretchA
import proofs.«179557_j45509473469000_2_alg».proof.Proof.StretchB
import proofs.«179557_j45509473469000_2_alg».proof.Proof.NrmRef
import proofs.«179557_j45509473469000_2_alg».proof.Proof.Mat0
import proofs.«179557_j45509473469000_2_alg».proof.Proof.Mat1
import proofs.«179557_j45509473469000_2_alg».proof.Proof.Mat2
import proofs.«179557_j45509473469000_2_alg».proof.Proof.ReadP
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Cert.KernelIdeal.Keep

/-! ## Before the first call -/

theorem W1_eq (c : Dev nD) : W1 m ρ c = StableHlo.after StretchA.hostOps0b (StableHlo.after StretchA.hostOps0a (W0 m ρ c)) := by
  show StableHlo.after hostOps0 (W0 m ρ c) = _
  rw [StretchA.hostOps0_split, StableHlo.after_append]

theorem v6_a (c : Dev nD) : StableHlo.after (StretchA.hostOps0a (F := Ideal)) (W0 m ρ c) (Proc.devRef .tc main_v6) = Cert.ReferenceIdeal.ReadP.val_main_v6 (F := Ideal) (m ((c : Thread nD τ).loc main_arg1)) := by
  dsimp only [StretchA.hostOps0a]
  after_results_simp
  rfl
theorem v3_2 (c : Dev nD) : W2 m ρ c (Proc.devRef .tc main_v3) = Cert.ReferenceIdeal.ReadP.val_main_v3 (F := Ideal) (m ((c : Thread nD τ).loc main_arg1)) := by
  dsimp only [W2, W1, hostOps0, hostOps0_1]
  after_results_simp
  rfl
theorem v6_2 (c : Dev nD) : W2 m ρ c (Proc.devRef .tc main_v6) = Cert.ReferenceIdeal.ReadP.val_main_v6 (F := Ideal) (m ((c : Thread nD τ).loc main_arg1)) := by
  dsimp only [W2, W1, hostOps0, hostOps0_1]
  after_results_simp
  rfl
theorem v3_3 (c : Dev nD) : W3 m ρ c (Proc.devRef .tc main_v3) = Cert.ReferenceIdeal.ReadP.val_main_v3 (F := Ideal) (m ((c : Thread nD τ).loc main_arg1)) := by
  dsimp only [W3, W2, W1, hostOps0, hostOps0_1, hostOps0_2]
  after_results_simp
  rfl
theorem v6_3 (c : Dev nD) : W3 m ρ c (Proc.devRef .tc main_v6) = Cert.ReferenceIdeal.ReadP.val_main_v6 (F := Ideal) (m ((c : Thread nD τ).loc main_arg1)) := by
  dsimp only [W3, W2, W1, hostOps0, hostOps0_1, hostOps0_2]
  after_results_simp
  rfl

theorem v12_1 (c : Dev nD) : W1 m ρ c (Proc.devRef .tc main_v12) = Cert.ReferenceIdeal.ReadP.val_main_v13 (F := Ideal) (m ((c : Thread nD τ).loc main_arg1)) :=
  (congrFun (W1_eq m ρ c) (Proc.devRef .tc main_v12)).trans (StretchA.s0b_v12 _ _ (v6_a m ρ c))
theorem v13_1 (c : Dev nD) : W1 m ρ c (Proc.devRef .tc main_v13) = Cert.ReferenceIdeal.ReadP.val_main_v14 (F := Ideal) (m ((c : Thread nD τ).loc main_arg1)) :=
  (congrFun (W1_eq m ρ c) (Proc.devRef .tc main_v13)).trans (StretchA.s0b_v13 _ _ (v6_a m ρ c))
theorem cst2_1 (c : Dev nD) : W1 m ρ c (Proc.devRef .tc main_cst_2) = Cert.ReferenceIdeal.ReadP.val_main_cst_2 (F := Ideal) :=
  (congrFun (W1_eq m ρ c) (Proc.devRef .tc main_cst_2)).trans (StretchA.s0b_cst2 _)
/-- The node weights. -/
theorem v14_2 (c : Dev nD) : W2 m ρ c (Proc.devRef .tc main_v14) = Cert.ReferenceIdeal.ReadP.val_main_v15 (F := Ideal) (m ((c : Thread nD τ).loc main_arg1)) :=
  StretchA.s01_v14 (W1 m ρ c) _ (v12_1 m ρ c) (v13_1 m ρ c) (cst2_1 m ρ c)
/-- The edge weights. -/
theorem nrm_3 (c : Dev nD) : W3 m ρ c (Proc.devRef .tc main_v29) = Cert.ReferenceIdeal.ReadP.val_main_v30 (F := Ideal) (m ((c : Thread nD τ).loc main_arg1)) :=
  StretchA.s02_v29 (W2 m ρ c) _ (v14_2 m ρ c) (v3_2 m ρ c) (v6_2 m ρ c)

/-! ## The first layer -/

theorem h1 (c : Dev nD) : W4 m ρ c (Proc.devRef .tc main_v30) = Cert.ReferenceIdeal.ReadP.val_main_v7 (F := Ideal) (m ((c : Thread nD τ).loc main_arg0)) (m ((c : Thread nD τ).loc main_arg2)) :=
  (W4_arr m ρ c 2).trans ((Mat0.final (V3 m ρ) c).trans (by
    rw [show V3 m ρ c main_arg0 = (m ((c : Thread nD τ).loc main_arg0)) from keep_main_arg0_3 m ρ c, show V3 m ρ c main_arg2 = (m ((c : Thread nD τ).loc main_arg2)) from keep_main_arg2_3 m ρ c]
    rfl))
theorem a1_add (c : Dev nD) : W5 m ρ c (Proc.devRef .tc main_v46) = Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) :=
  StretchB.s1_add (W4 m ρ c) _ _ _ _ ((keep_main_v3_4 m ρ c).trans (v3_3 m ρ c)) ((keep_main_v6_4 m ρ c).trans (v6_3 m ρ c))
    ((keep_main_v29_4 m ρ c).trans (nrm_3 m ρ c)) (h1 m ρ c) (keep_main_arg3_4 m ρ c)
theorem a1 (c : Dev nD) : W6 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) :=
  StretchB.s1_relu (W5 m ρ c) _ _ _ _ (a1_add m ρ c)

/-! ## The second layer -/

theorem h2 (c : Dev nD) : W7 m ρ c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((Mat1.final (V6 m ρ) c).trans (by
    rw [show V6 m ρ c main_v47 = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) from a1 m ρ c, show V6 m ρ c main_arg4 = (m ((c : Thread nD τ).loc main_arg4)) from keep_main_arg4_6 m ρ c]
    rfl))
theorem a2_add (c : Dev nD) : W8 m ρ c (Proc.devRef .tc main_v64) = Cert.ReferenceIdeal.ReadP.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  StretchB.s2_add (W7 m ρ c) _ _ _ _ _ _ ((keep_main_v3_7 m ρ c).trans (v3_3 m ρ c)) ((keep_main_v6_7 m ρ c).trans (v6_3 m ρ c))
    (((keep_main_v29_7 m ρ c).trans (nrm_3 m ρ c)).trans (Cert.ReferenceIdeal.Nrm.nrm2 _).symm) (h2 m ρ c) (keep_main_arg5_7 m ρ c)
theorem a2 (c : Dev nD) : W9 m ρ c (Proc.devRef .tc main_v65) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  StretchB.s2_relu (W8 m ρ c) _ _ _ _ _ _ (a2_add m ρ c)

/-! ## The third layer -/

theorem h3 (c : Dev nD) : W10 m ρ c (Proc.devRef .tc main_v66) = Cert.ReferenceIdeal.ReadP.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 2).trans ((Mat2.final (V9 m ρ) c).trans (by
    rw [show V9 m ρ c main_v65 = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from a2 m ρ c, show V9 m ρ c main_arg6 = (m ((c : Thread nD τ).loc main_arg6)) from keep_main_arg6_9 m ρ c]
    rfl))
theorem a3_add (c : Dev nD) : W11 m ρ c (Proc.devRef .tc main_v82) = Cert.ReferenceIdeal.ReadP.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  StretchB.s3_add (W10 m ρ c) _ _ _ _ _ _ _ _ ((keep_main_v3_10 m ρ c).trans (v3_3 m ρ c)) ((keep_main_v6_10 m ρ c).trans (v6_3 m ρ c))
    (((keep_main_v29_10 m ρ c).trans (nrm_3 m ρ c)).trans (Cert.ReferenceIdeal.Nrm.nrm3 _).symm) (h3 m ρ c) (keep_main_arg7_10 m ρ c)
/-- The codes the decoder reads. -/
theorem z12 (c : Dev nD) : W12 m ρ c (Proc.devRef .tc main_v83) = Cert.ReferenceIdeal.ReadP.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  StretchB.s3_relu (W11 m ρ c) _ _ _ _ _ _ _ _ (a3_add m ρ c)
theorem z13 (c : Dev nD) : W13 m ρ c (Proc.devRef .tc main_v83) = Cert.ReferenceIdeal.ReadP.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (by keep_stretch hostOps3_2 : W13 m ρ c (Proc.devRef .tc main_v83) = W12 m ρ c (Proc.devRef .tc main_v83)).trans (z12 m ρ c)

end Cert.KernelIdeal.Chain

end
-- ==== Proof.Dec.lean ====
/-
  The fused three-layer decoder, as one function of the arrays it finds.

  The call walks ten row blocks of 5000 rows of the [50000, 32] code array.  On each row z of a block the body computes

      d1 = max (z · Wd1 + bd1, 0),   d2 = max (d1 · Wd2 + bd2, 0),   o = d2 · Wd3 + bd3

  (each product into a zero accumulator, the operands rounded to a narrower format first, which over the extended reals
  changes nothing; the biases are [1, n] arrays read on their one row) and stores the [5000, 256] block of rows o.  A row
  of the result depends on the same row of the code array only, so the ten write-backs tile the [50000, 256] result with
  the rows of one whole-array function: `dec` below.  This holds for any contents the call is entered with.
-/
import proofs.«179557_j45509473469000_2_alg».proof.Proof.Gen.KernelIdeal.Frame
import proofs.«179557_j45509473469000_2_alg».proof.Proof.LibMatmul
import Idealize.ShloMosaic.Lib.Pipeline.Value
import Idealize.ShloMosaic.Lib.ValueLayout

set_option maxRecDepth 16384

noncomputable section

namespace Cert.KernelIdeal.Dec

open Cert.KernelIdeal Cert.KernelIdeal.Gen Idealize.ShloMosaic Idealize.ShloMosaic.TcCoe Idealize.SL.Sem
open Idealize.ShloMosaic.ValueIdx
open Idealize.ShloMosaic.Pipeline (Dat)

/-- The word of +0.0, as both programs splat it. -/
abbrev zero : EReal := Ideal.ofBits .f32 0x00000000#32

/-! ## One row through the three layers -/

/-- A dense layer on one row: (a · W)(q) + b(0, q). -/
def rowDense {K N : Nat} (a : Fin K → EReal) (W : (⟨2, ![K, N]⟩ : Shape).Idx → EReal) (b : (⟨2, ![1, N]⟩ : Shape).Idx → EReal) :
    Fin N → EReal :=
  fun q => (∑ k : Fin K, a k * W (ix2 k q)) + b (ix2 (0 : Fin 1) q)

/-- The rectifier on one row. -/
def rowRelu {N : Nat} (a : Fin N → EReal) : Fin N → EReal := fun q => max (a q) zero

/-- The decoder on one row of the code array. -/
def rowDec (z : Fin 32 → EReal) (W1 : S32x64.Idx → EReal) (b1 : S1x64.Idx → EReal) (W2 : S64x128.Idx → EReal)
    (b2 : S1x128.Idx → EReal) (W3 : S128x256.Idx → EReal) (b3 : S1x256.Idx → EReal) : Fin 256 → EReal :=
  rowDense (rowRelu (rowDense (rowRelu (rowDense z W1 b1)) W2 b2)) W3 b3

/-- The decoder on a whole array of codes, row by row. -/
def dec {M : Nat} (z : (⟨2, ![M, 32]⟩ : Shape).Idx → EReal) (W1 : S32x64.Idx → EReal) (b1 : S1x64.Idx → EReal) (W2 : S64x128.Idx → EReal)
    (b2 : S1x128.Idx → EReal) (W3 : S128x256.Idx → EReal) (b3 : S1x256.Idx → EReal) : (⟨2, ![M, 256]⟩ : Shape).Idx → EReal :=
  fun i => rowDec (fun k => z (ix2 (i 0) k)) W1 b1 W2 b2 W3 b3 (i 1)

/-! ## The body's operations, layer by layer -/

/-- One layer as the body spells it: a product into the zero splat plus the bias row broadcast over the rows. -/
def denseM {M K N : Nat} (a : FVec Ideal ⟨2, ![M, K]⟩ .f32) (W : FVec Ideal ⟨2, ![K, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩) : FVec Ideal ⟨2, ![M, N]⟩ .f32 :=
  addf (matmul (DotDims.plain M K N) none (truncf .bf16 a (by decide)) (truncf .bf16 W (by decide)) (constant ⟨2, ![M, N]⟩ .f32 0x00000000#32))
    (broadcastTo ⟨2, ![M, N]⟩ (shapeCast ⟨2, ![1, N]⟩ b hs) hb)

/-- The rectifier as the body spells it. -/
def reluM {S : Shape} (a : FVec Ideal S .f32) : FVec Ideal S .f32 :=
  maximumf a (broadcast S (Scalar.ofBits (F := Ideal) .f32 0x00000000#32))

/-- A layer at (p, q) is the row layer on row p. -/
theorem denseM_row {M K N : Nat} (a : FVec Ideal ⟨2, ![M, K]⟩ .f32) (W : FVec Ideal ⟨2, ![K, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩) (p : Fin M) (q : Fin N) :
    denseM a W b hs hb (ix2 p q) = rowDense (fun k => a (ix2 p k)) W b q := by
  show FloatOps.matmul (DotDims.plain M K N) none (truncf .bf16 a (by decide)) (truncf .bf16 W (by decide)) (constant ⟨2, ![M, N]⟩ .f32 0x00000000#32) (ix2 p q)
      + broadcastTo ⟨2, ![M, N]⟩ (shapeCast ⟨2, ![1, N]⟩ b hs) hb (ix2 p q) = _
  rw [Cert.LibMatmul.matmul_plain_zero_apply, shapeCast_self, broadcastTo_1b_ab_apply]
  rfl

/-- The rectifier at (p, q). -/
theorem reluM_row {M N : Nat} (a : FVec Ideal ⟨2, ![M, N]⟩ .f32) (p : Fin M) (q : Fin N) :
    reluM a (ix2 p q) = rowRelu (fun q => a (ix2 p q)) q := rfl

/-- The body's stored value is the three layers composed. -/
theorem pay_eq (x0 : Vec Ideal S5000x32 .f32) (x1 : Vec Ideal S32x64 .f32) (x2 : Vec Ideal S1x64 .f32) (x3 : Vec Ideal S64x128 .f32)
    (x4 : Vec Ideal S1x128 .f32) (x5 : Vec Ideal S128x256 .f32) (x6 : Vec Ideal S1x256 .f32)
    (h1 : S1x64.ShapeCasts S1x64) (h1' : S1x64.Broadcasts S5000x64) (h2 : S1x128.ShapeCasts S1x128) (h2' : S1x128.Broadcasts S5000x128)
    (h3 : S1x256.ShapeCasts S1x256) (h3' : S1x256.Broadcasts S5000x256) (h0 : S5000x32.ShapeCasts S5000x32) :
    k3_pay1 (F := Ideal) x0 x1 x2 x3 x4 x5 x6
      = denseM (M := 5000) (K := 128) (N := 256) (reluM (denseM (M := 5000) (K := 64) (N := 128) (reluM (denseM (M := 5000) (K := 32) (N := 64) (shapeCast S5000x32 x0 h0) x1 x2 h1 h1')) x3 x4 h2 h2')) x5 x6 h3 h3' := rfl

/-- The stored block at (p, q): the decoder on row p of the code block. -/
theorem pay_apply (x0 : Vec Ideal S5000x32 .f32) (x1 : Vec Ideal S32x64 .f32) (x2 : Vec Ideal S1x64 .f32) (x3 : Vec Ideal S64x128 .f32)
    (x4 : Vec Ideal S1x128 .f32) (x5 : Vec Ideal S128x256 .f32) (x6 : Vec Ideal S1x256 .f32) (p : Fin 5000) (q : Fin 256) :
    k3_pay1 (F := Ideal) x0 x1 x2 x3 x4 x5 x6 (ix2 p q) = rowDec (fun k => x0 (ix2 p k)) x1 x2 x3 x4 x5 x6 q := by
  rw [pay_eq x0 x1 x2 x3 x4 x5 x6 (by decide) (by decide) (by decide) (by decide) (by decide) (by decide) (by decide), denseM_row]
  unfold rowDec
  refine congrArg (fun a => rowDense a x5 x6 q) (funext fun k => ?_)
  rw [reluM_row]
  refine congrArg (fun a => rowRelu a k) (funext fun k => ?_)
  rw [denseM_row]
  refine congrArg (fun a => rowDense a x3 x4 k) (funext fun k => ?_)
  rw [reluM_row]
  refine congrArg (fun a => rowRelu a k) (funext fun k => ?_)
  rw [denseM_row, shapeCast_self]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten points: the codes and the result move down one row block per point, the weights
    and the bias rows stay. -/
theorem idx_facts : ∀ t : Fin cfg3.N, (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-- A window that holds its whole array at every point reads that array. -/
theorem iblk1 (c : Dev nD) (t : Fin cfg3.N) : (iblk3 V c 1 t : S32x64.Idx → EReal) = V c main_arg8 := by
  obtain ⟨-, ⟨e0, e1⟩, -⟩ := idx_facts t
  funext y
  show V c main_arg8 (((cfg3.win 1).blk t).view.emb y) = V c main_arg8 y
  refine congrArg (V c main_arg8) (funext fun a => Fin.ext ?_)
  match a with
  | ⟨0, _⟩ => show win3_1.index t (0 : Fin 2) * 32 + 1 * (y 0).val = (y 0).val; rw [e0]; omega
  | ⟨1, _⟩ => show win3_1.index t (1 : Fin 2) * 64 + 1 * (y 1).val = (y 1).val; rw [e1]; omega
theorem iblk2 (c : Dev nD) (t : Fin cfg3.N) : (iblk3 V c 2 t : S1x64.Idx → EReal) = V c main_v84 := by
  obtain ⟨-, -, ⟨e0, e1⟩, -⟩ := idx_facts t
  funext y
  show V c main_v84 (((cfg3.win 2).blk t).view.emb y) = V c main_v84 y
  refine congrArg (V c main_v84) (funext fun a => Fin.ext ?_)
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega
theorem iblk3' (c : Dev nD) (t : Fin cfg3.N) : (iblk3 V c 3 t : S64x128.Idx → EReal) = V c main_arg10 := by
  obtain ⟨-, -, -, ⟨e0, e1⟩, -⟩ := idx_facts t
  funext y
  show V c main_arg10 (((cfg3.win 3).blk t).view.emb y) = V c main_arg10 y
  refine congrArg (V c main_arg10) (funext fun a => Fin.ext ?_)
  match a with
  | ⟨0, _⟩ => show win3_3.index t (0 : Fin 2) * 64 + 1 * (y 0).val = (y 0).val; rw [e0]; omega
  | ⟨1, _⟩ => show win3_3.index t (1 : Fin 2) * 128 + 1 * (y 1).val = (y 1).val; rw [e1]; omega
theorem iblk4 (c : Dev nD) (t : Fin cfg3.N) : (iblk3 V c 4 t : S1x128.Idx → EReal) = V c main_v85 := by
  obtain ⟨-, -, -, -, ⟨e0, e1⟩, -⟩ := idx_facts t
  funext y
  show V c main_v85 (((cfg3.win 4).blk t).view.emb y) = V c main_v85 y
  refine congrArg (V c main_v85) (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega
theorem iblk5 (c : Dev nD) (t : Fin cfg3.N) : (iblk3 V c 5 t : S128x256.Idx → EReal) = V c main_arg12 := by
  obtain ⟨-, -, -, -, -, ⟨e0, e1⟩, -⟩ := idx_facts t
  funext y
  show V c main_arg12 (((cfg3.win 5).blk t).view.emb y) = V c main_arg12 y
  refine congrArg (V c main_arg12) (funext fun a => Fin.ext ?_)
  match a with
  | ⟨0, _⟩ => show win3_5.index t (0 : Fin 2) * 128 + 1 * (y 0).val = (y 0).val; rw [e0]; omega
  | ⟨1, _⟩ => show win3_5.index t (1 : Fin 2) * 256 + 1 * (y 1).val = (y 1).val; rw [e1]; omega
theorem iblk6 (c : Dev nD) (t : Fin cfg3.N) : (iblk3 V c 6 t : S1x256.Idx → EReal) = V c main_v86 := by
  obtain ⟨-, -, -, -, -, -, ⟨e0, e1⟩, -⟩ := idx_facts t
  funext y
  show V c main_v86 (((cfg3.win 6).blk t).view.emb y) = V c main_v86 y
  refine congrArg (V c main_v86) (funext fun a => Fin.ext ?_)
  match a with
  | ⟨0, _⟩ => show win3_6.index t (0 : Fin 2) * 1 + 1 * (y 0).val = (y 0).val; rw [e0]; omega
  | ⟨1, _⟩ => show win3_6.index t (1 : Fin 2) * 256 + 1 * (y 1).val = (y 1).val; rw [e1]; omega

/-- The whole-array decoder of the arrays as the call finds them. -/
abbrev G (c : Dev nD) : S50000x256.Idx → EReal :=
  dec (M := 50000) (V c main_v83) (V c main_arg8) (V c main_v84) (V c main_arg10) (V c main_v85) (V c main_arg12) (V c main_v86)

/-- What point t writes back is block t of the decoder of the arrays as the call finds them. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S5000x32) hz, View.ld_unit_zero (S := S32x64) hz, View.ld_unit_zero (S := S1x64) hz,
    View.ld_unit_zero (S := S64x128) hz, View.ld_unit_zero (S := S1x128) hz, View.ld_unit_zero (S := S128x256) hz,
    View.ld_unit_zero (S := S1x256) hz]
  obtain ⟨⟨e0, e1⟩, -, -, -, -, -, -, ⟨e4, e5⟩⟩ := idx_facts t
  have ht : t.val < 10 := Nat.lt_of_lt_of_eq t.isLt N_3
  funext j
  obtain ⟨p, q, rfl⟩ : ∃ (p : Fin 5000) (q : Fin 256), j = ix2 p q := ⟨j 0, j 1, eq_ix2 j⟩
  have hp : p.val < 5000 := p.isLt
  have hr : ((cfg3.win 7).blk t).view.emb (ix2 p q) = ix2 (⟨t.val * 5000 + p.val, by omega⟩ : Fin 50000) q := by
    funext a; apply Fin.ext
    match a with
    | ⟨0, _⟩ => show win3_7.index t (0 : Fin 2) * 5000 + 1 * p.val = t.val * 5000 + p.val; rw [e4]; omega
    | ⟨1, _⟩ => show win3_7.index t (1 : Fin 2) * 256 + 1 * q.val = q.val; rw [e5]; omega
  show k3_pay1 (iblk3 V c 0 t) (iblk3 V c 1 t) (iblk3 V c 2 t) (iblk3 V c 3 t) (iblk3 V c 4 t) (iblk3 V c 5 t) (iblk3 V c 6 t) (ix2 p q)
    = G V c (((cfg3.win 7).blk t).view.emb (ix2 p q))
  rw [hr]
  refine (pay_apply (iblk3 V c 0 t) (iblk3 V c 1 t) (iblk3 V c 2 t) (iblk3 V c 3 t) (iblk3 V c 4 t) (iblk3 V c 5 t) (iblk3 V c 6 t) p q).trans ?_
  rw [iblk1 V c t, iblk2 V c t, iblk3' V c t, iblk4 V c t, iblk5 V c t, iblk6 V c t]
  show _ = rowDec (fun k => V c main_v83 (ix2 (⟨t.val * 5000 + p.val, by omega⟩ : Fin 50000) k)) _ _ _ _ _ _ q
  refine congrArg (fun z => rowDec z (V c main_arg8) (V c main_v84) (V c main_arg10) (V c main_v85) (V c main_arg12) (V c main_v86) q) (funext fun k => ?_)
  show V c main_v83 (((cfg3.win 0).blk t).view.emb (ix2 p k)) = _
  refine congrArg (V c main_v83) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 32 + 1 * k.val = k.val; rw [e1]; omega

/-- An index is in point t's block iff each coordinate is in the block's range on its axis. -/
theorem mem_blk (t : Fin cfg3.N) (i : S50000x256.Idx) :
    i ∈ ((cfg3.win 7).blk t).view.set ↔ ∀ a : Fin 2, win3_7.index t a * S5000x256.size a ≤ (i a).val ∧ (i a).val < win3_7.index t a * S5000x256.size a + S5000x256.size a := by
  show i ∈ ((View.whole main_v87).slice (win3_7.rect t)).set ↔ _
  rw [View.set_slice_whole, Rect.mem_set_unit]
  exact Iff.rfl

/-- The ten row blocks cover the result: row r lies in block r / 5000. -/
theorem cover (i : S50000x256.Idx) : ∃ t : Fin cfg3.N, (cfg3.win 7).flush t = true ∧ i ∈ ((cfg3.win 7).blk t).view.set := by
  have hi0 : (i 0).val < 50000 := (i 0).isLt
  have hi1 : (i 1).val < 256 := (i 1).isLt
  have hN : cfg3.N = 10 := N_3
  obtain ⟨t, htv⟩ : ∃ t : Fin cfg3.N, t.val = (i 0).val / 5000 := ⟨⟨(i 0).val / 5000, by rw [hN]; omega⟩, rfl⟩
  obtain ⟨-, -, -, -, -, -, -, ⟨e4, e5⟩⟩ := idx_facts t
  refine ⟨t, flush3_7 t, ?_⟩
  rw [mem_blk]
  intro a
  match a with
  | ⟨0, _⟩ => show win3_7.index t (0 : Fin 2) * 5000 ≤ (i 0).val ∧ (i 0).val < win3_7.index t (0 : Fin 2) * 5000 + 5000; rw [e4, htv]; omega
  | ⟨1, _⟩ => show win3_7.index t (1 : Fin 2) * 256 ≤ (i 1).val ∧ (i 1).val < win3_7.index t (1 : Fin 2) * 256 + 256; rw [e5]; omega

/-- The result array after the call: the decoder of the arrays as the call found them. -/
theorem final (c : Dev nD) : (dat3 V c).arrAt 7 cfg3.N = G V c :=
  (dat3 V c).arrAt_eq_of_cover 7 (G V c) (fun t _ => flushed_eq V c t) cover

end Cert.KernelIdeal.Dec

end
-- ==== Proof.ChainD.lean ====
/-
  The decoder's inputs and the idealized kernel's result.

  Before the last call the program reshapes the three decoder bias vectors to one-row arrays; the last call then runs
  the fused decoder on the third layer's activations.  Its result array — the program's result — therefore holds the
  whole-array decoder `dec` of the reference's third-layer stage, of the decoder's weight arguments as launched, and of
  the reshaped bias vectors.
-/
import proofs.«179557_j45509473469000_2_alg».proof.Proof.Chain
import proofs.«179557_j45509473469000_2_alg».proof.Proof.KeepB
import proofs.«179557_j45509473469000_2_alg».proof.Proof.StretchB
import proofs.«179557_j45509473469000_2_alg».proof.Proof.Dec
import proofs.«179557_j45509473469000_2_alg».proof.Proof.ReadP
import Idealize.ShloMosaic.Lib.StableHlo.Run

set_option maxRecDepth 16384

noncomputable section

namespace Cert.KernelIdeal.ChainD

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Cert.KernelIdeal.KeepB

theorem b1 (c : Dev nD) : W13 m ρ c (Proc.devRef .tc main_v84) = shapeCast S1x64 (m ((c : Thread nD τ).loc main_arg9)) shapeCasts_S64_S1x64 :=
  StretchB.s32_main_v84 (W12 m ρ c) _ (keep_main_arg9_12 m ρ c)
theorem b2 (c : Dev nD) : W13 m ρ c (Proc.devRef .tc main_v85) = shapeCast S1x128 (m ((c : Thread nD τ).loc main_arg11)) shapeCasts_S128_S1x128 :=
  StretchB.s32_main_v85 (W12 m ρ c) _ (keep_main_arg11_12 m ρ c)
theorem b3 (c : Dev nD) : W13 m ρ c (Proc.devRef .tc main_v86) = shapeCast S1x256 (m ((c : Thread nD τ).loc main_arg13)) shapeCasts_S256_S1x256 :=
  StretchB.s32_main_v86 (W12 m ρ c) _ (keep_main_arg13_12 m ρ c)

/-- What the idealized kernel's result array holds at the end: the decoder of the reference's third-layer stage. -/
def kval (c : Dev nD) : S50000x256.Idx → EReal :=
  Dec.dec (M := 50000) (Cert.ReferenceIdeal.ReadP.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (shapeCast S1x64 (m ((c : Thread nD τ).loc main_arg9)) shapeCasts_S64_S1x64)
    (m ((c : Thread nD τ).loc main_arg10)) (shapeCast S1x128 (m ((c : Thread nD τ).loc main_arg11)) shapeCasts_S128_S1x128) (m ((c : Thread nD τ).loc main_arg12)) (shapeCast S1x256 (m ((c : Thread nD τ).loc main_arg13)) shapeCasts_S256_S1x256)

theorem out (c : Dev nD) : W14 m ρ c (Proc.devRef .tc main_v87) = kval m c :=
  (W14_arr m ρ c 7).trans ((Dec.final (V13 m ρ) c).trans (by
    show Dec.dec (M := 50000) (W13 m ρ c (Proc.devRef .tc main_v83)) (W13 m ρ c (Proc.devRef .tc main_arg8)) (W13 m ρ c (Proc.devRef .tc main_v84))
      (W13 m ρ c (Proc.devRef .tc main_arg10)) (W13 m ρ c (Proc.devRef .tc main_v85)) (W13 m ρ c (Proc.devRef .tc main_arg12)) (W13 m ρ c (Proc.devRef .tc main_v86)) = _
    rw [Chain.z13 m ρ c, keep_main_arg8_13 m ρ c, b1 m ρ c, keep_main_arg10_13 m ρ c, b2 m ρ c, keep_main_arg12_13 m ρ c, b3 m ρ c]
    rfl))

end Cert.KernelIdeal.ChainD

end
-- ==== Proof.RefDec.lean ====
/-
  The reference's decoder, row by row.

  The reference's last stages are three dense layers on the [50000, 32] code array: a host product with the weight
  matrix, the bias broadcast over the rows, and (after the first two) the rectifier.  Read at an entry, each layer is a
  function of one row of its input — the sum over k of input(r, k) · weight(k, q), plus bias(q) — so the whole decoder is
  the row function `rowDec` applied to each row of the codes: the same whole-array function `dec` that the kernel's
  fused call computes block by block.  The kernel passes the bias vectors reshaped to one-row arrays where the reference
  broadcasts them to one row; the two arrays are equal.
-/
import proofs.«179557_j45509473469000_2_alg».proof.Proof.ReadP
import proofs.«179557_j45509473469000_2_alg».proof.Proof.Dec
import proofs.«179557_j45509473469000_2_alg».proof.Proof.LibMatmul
import Idealize.ShloMosaic.Lib.Pipeline.Value
import Idealize.ShloMosaic.Lib.ValueLayout

set_option maxRecDepth 16384

noncomputable section

namespace Cert.ReferenceIdeal.RefDec

open Cert.ReferenceIdeal Cert.ReferenceIdeal.Gen Cert.ReferenceIdeal.ReadP Idealize.ShloMosaic Idealize.ShloMosaic.ValueIdx
open Cert.KernelIdeal.Dec (rowDense rowRelu rowDec dec)

/-- A dense layer as the reference spells it: the host's product plus the bias row broadcast over the rows. -/
def refDense {M K N : Nat} (A : FVec Ideal ⟨2, ![M, K]⟩ .f32) (W : FVec Ideal ⟨2, ![K, N]⟩ .f32) (B : FVec Ideal ⟨2, ![1, N]⟩ .f32)
    (hb : (⟨2, ![1, N]⟩ : Shape).BroadcastsInDim ⟨2, ![M, N]⟩ ![0, 1]) : FVec Ideal ⟨2, ![M, N]⟩ .f32 :=
  addf (Host.dotGeneral (F := Ideal) (DotDims.plain M K N) none A W) (broadcastInDim ⟨2, ![M, N]⟩ ![0, 1] hb B)

/-- The rectifier as the reference spells it. -/
def refRelu {S : Shape} (A : FVec Ideal S .f32) (h0 : (⟨0, ![]⟩ : Shape).BroadcastsInDim S ![]) : FVec Ideal S .f32 :=
  maximumf A (broadcastInDim S ![] h0 (constant (F := Ideal) ⟨0, ![]⟩ .f32 0x00000000#32))

/-- A one-row array broadcast over the rows reads its row. -/
theorem bias_row {M N : Nat} (B : (⟨2, ![1, N]⟩ : Shape).Idx → EReal) (hb : (⟨2, ![1, N]⟩ : Shape).BroadcastsInDim ⟨2, ![M, N]⟩ ![0, 1])
    (r : Fin M) (q : Fin N) : broadcastInDim ⟨2, ![M, N]⟩ ![0, 1] hb B (ix2 r q) = B (ix2 (0 : Fin 1) q) :=
  broadcastInDim_apply _ hb B (ix2 r q) (ix2 (0 : Fin 1) q) (fun a => match a with
    | ⟨0, _⟩ => by show (0 : Nat) = if (1 : Nat) = 1 then 0 else r.val; rw [if_pos rfl]
    | ⟨1, _⟩ => by
      show q.val = if N = 1 then 0 else q.val
      split
      · have := q.isLt; omega
      · rfl)

/-- A layer at (r, q) is the row layer on row r. -/
theorem refDense_row {M K N : Nat} (A : FVec Ideal ⟨2, ![M, K]⟩ .f32) (W : FVec Ideal ⟨2, ![K, N]⟩ .f32) (B : FVec Ideal ⟨2, ![1, N]⟩ .f32)
    (hb : (⟨2, ![1, N]⟩ : Shape).BroadcastsInDim ⟨2, ![M, N]⟩ ![0, 1]) (r : Fin M) (q : Fin N) :
    refDense A W B hb (ix2 r q) = rowDense (fun k => A (ix2 r k)) W B q := by
  show FloatOps.dotGeneral (DotDims.plain M K N) none .single A W (ix2 r q) + broadcastInDim ⟨2, ![M, N]⟩ ![0, 1] hb B (ix2 r q) = _
  rw [Cert.LibMatmul.dotGeneral_plain_apply, bias_row]
  rfl

/-- The rectifier at (r, q). -/
theorem refRelu_row {M N : Nat} (A : FVec Ideal ⟨2, ![M, N]⟩ .f32) (h0 : (⟨0, ![]⟩ : Shape).BroadcastsInDim ⟨2, ![M, N]⟩ ![]) (r : Fin M) (q : Fin N) :
    refRelu A h0 (ix2 r q) = rowRelu (fun q => A (ix2 r q)) q := rfl

/-- The reference's last stages are the three layers composed. -/
theorem ref_eq (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S32x64, .f32⟩ : BufTy).Contents (Elt Ideal)) (x9 : (⟨S64, .f32⟩ : BufTy).Contents (Elt Ideal)) (x10 : (⟨S64x128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) :
    val_main_v143 (F := Ideal) x0 x1 x2 x3 x4 x5 x6 x7 x8 x9 x10 x11 x12 x13
      = refDense (M := 50000) (K := 128) (N := 256) (refRelu (refDense (M := 50000) (K := 64) (N := 128) (refRelu (refDense (M := 50000) (K := 32) (N := 64)
          (val_main_v129 (F := Ideal) x0 x1 x2 x3 x4 x5 x6 x7) x8 (val_main_v131 (F := Ideal) x9) bcast_S1x64_S50000x64_0_1) bcast_S_S50000x64)
          x10 (val_main_v136 (F := Ideal) x11) bcast_S1x128_S50000x128_0_1) bcast_S_S50000x128)
          x12 (val_main_v141 (F := Ideal) x13) bcast_S1x256_S50000x256_0_1 := rfl

/-- The reference's result is the decoder of its codes, row by row. -/
theorem ref_dec (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (x8 : (⟨S32x64, .f32⟩ : BufTy).Contents (Elt Ideal)) (x9 : (⟨S64, .f32⟩ : BufTy).Contents (Elt Ideal)) (x10 : (⟨S64x128, .f32⟩ : BufTy).Contents (Elt Ideal)) (x11 : (⟨S128, .f32⟩ : BufTy).Contents (Elt Ideal)) (x12 : (⟨S128x256, .f32⟩ : BufTy).Contents (Elt Ideal)) (x13 : (⟨S256, .f32⟩ : BufTy).Contents (Elt Ideal)) :
    val_main_v143 (F := Ideal) x0 x1 x2 x3 x4 x5 x6 x7 x8 x9 x10 x11 x12 x13
      = dec (M := 50000) (val_main_v129 (F := Ideal) x0 x1 x2 x3 x4 x5 x6 x7) x8 (val_main_v131 (F := Ideal) x9) x10 (val_main_v136 (F := Ideal) x11) x12
          (val_main_v141 (F := Ideal) x13) := by
  rw [ref_eq]
  funext i
  obtain ⟨r, q, rfl⟩ : ∃ (r : Fin 50000) (q : Fin 256), i = ix2 r q := ⟨i 0, i 1, eq_ix2 i⟩
  show _ = rowDec (fun k => val_main_v129 (F := Ideal) x0 x1 x2 x3 x4 x5 x6 x7 (ix2 r k)) x8 (val_main_v131 (F := Ideal) x9) x10 (val_main_v136 (F := Ideal) x11) x12
    (val_main_v141 (F := Ideal) x13) q
  rw [refDense_row]
  unfold Cert.KernelIdeal.Dec.rowDec
  refine congrArg (fun a => rowDense a x12 (val_main_v141 (F := Ideal) x13) q) (funext fun k => ?_)
  rw [refRelu_row]
  refine congrArg (fun a => rowRelu a k) (funext fun k => ?_)
  rw [refDense_row]
  refine congrArg (fun a => rowDense a x10 (val_main_v136 (F := Ideal) x11) k) (funext fun k => ?_)
  rw [refRelu_row]
  refine congrArg (fun a => rowRelu a k) (funext fun k => ?_)
  rw [refDense_row]

/-- A bias vector as a one-row array: the kernel's reshape and the reference's broadcast hold the same row. -/
theorem bias64 (x9 : (⟨S64, .f32⟩ : BufTy).Contents (Elt Ideal)) (h : (⟨1, ![64]⟩ : Shape).ShapeCasts ⟨2, ![1, 64]⟩) :
    shapeCast ⟨2, ![1, 64]⟩ x9 h = val_main_v131 (F := Ideal) x9 := by
  funext i
  obtain ⟨u, j, rfl⟩ : ∃ (u : Fin 1) (j : Fin 64), i = ix2 u j := ⟨i 0, i 1, eq_ix2 i⟩
  refine (shapeCast_a_1a_apply x9 h u j).trans ?_
  refine ((val_main_v131_apply x9 (ix2 u j)).trans ?_).symm
  exact congrArg x9 (funext fun a => Fin.ext (by match a with | ⟨0, _⟩ => rfl))

/-- A bias vector as a one-row array: the kernel's reshape and the reference's broadcast hold the same row. -/
theorem bias128 (x11 : (⟨S128, .f32⟩ : BufTy).Contents (Elt Ideal)) (h : (⟨1, ![128]⟩ : Shape).ShapeCasts ⟨2, ![1, 128]⟩) :
    shapeCast ⟨2, ![1, 128]⟩ x11 h = val_main_v136 (F := Ideal) x11 := by
  funext i
  obtain ⟨u, j, rfl⟩ : ∃ (u : Fin 1) (j : Fin 128), i = ix2 u j := ⟨i 0, i 1, eq_ix2 i⟩
  refine (shapeCast_a_1a_apply x11 h u j).trans ?_
  refine ((val_main_v136_apply x11 (ix2 u j)).trans ?_).symm
  exact congrArg x11 (funext fun a => Fin.ext (by match a with | ⟨0, _⟩ => rfl))

/-- A bias vector as a one-row array: the kernel's reshape and the reference's broadcast hold the same row. -/
theorem bias256 (x13 : (⟨S256, .f32⟩ : BufTy).Contents (Elt Ideal)) (h : (⟨1, ![256]⟩ : Shape).ShapeCasts ⟨2, ![1, 256]⟩) :
    shapeCast ⟨2, ![1, 256]⟩ x13 h = val_main_v141 (F := Ideal) x13 := by
  funext i
  obtain ⟨u, j, rfl⟩ : ∃ (u : Fin 1) (j : Fin 256), i = ix2 u j := ⟨i 0, i 1, eq_ix2 i⟩
  refine (shapeCast_a_1a_apply x13 h u j).trans ?_
  refine ((val_main_v141_apply x13 (ix2 u j)).trans ?_).symm
  exact congrArg x13 (funext fun a => Fin.ext (by match a with | ⟨0, _⟩ => rfl))

end Cert.ReferenceIdeal.RefDec

end
-- ==== Proof.lean ====
/-
  The certificate: a three-layer graph convolution with a fused three-layer decoder, computed by four pipelined calls
  among host operations, against its plain reference — equal results over the extended reals.

  Both programs compute, from the node features x, the edge list and the weights,

      h₁ = max (Â (x W₁) + b₁, 0),  h₂ = max (Â (h₁ W₂) + b₂, 0),  z = max (Â (h₂ W₃) + b₃, 0),
      o = max (max (z Wd₁ + bd₁, 0) Wd₂ + bd₂, 0) Wd₃ + bd₃,

  where Â scatters, at the destination column, the rows gathered at the source column and scaled by the edge weights
  (the product of the endpoints' 1/√degree).  The kernel computes the four dense parts in pipelined calls over ten row
  blocks, rounding the operands of each product to a narrower format first; over the extended reals the rounding is the
  identity and a product into a zero accumulator is the host's product, so each call leaves the host's product of its
  whole arrays (or, for the decoder, the same row function applied to every row).  Everything between the calls is the
  same host operations in both programs.  No algebraic law beyond 0 + s = s is used, so the finiteness of the inputs is
  never needed.  The ideal pass rewrote nothing, so the idealization claim is trivial.
-/
import proofs.«179557_j45509473469000_2_alg».proof.Defs
import proofs.«179557_j45509473469000_2_alg».proof.Proof.Gen.Kernel
import proofs.«179557_j45509473469000_2_alg».proof.Proof.Gen.Kernel.Skeleton
import proofs.«179557_j45509473469000_2_alg».proof.Proof.Gen.Kernel.Launch
import proofs.«179557_j45509473469000_2_alg».proof.Proof.Gen.Kernel.Points
import proofs.«179557_j45509473469000_2_alg».proof.Proof.Gen.Kernel.Frame
import proofs.«179557_j45509473469000_2_alg».proof.Proof.Gen.KernelIdeal
import proofs.«179557_j45509473469000_2_alg».proof.Proof.Gen.KernelIdeal.Skeleton
import proofs.«179557_j45509473469000_2_alg».proof.Proof.Gen.KernelIdeal.Launch
import proofs.«179557_j45509473469000_2_alg».proof.Proof.Gen.KernelIdeal.Points
import proofs.«179557_j45509473469000_2_alg».proof.Proof.Gen.KernelIdeal.Frame
import proofs.«179557_j45509473469000_2_alg».proof.Proof.Gen.ReferenceIdeal
import proofs.«179557_j45509473469000_2_alg».proof.Proof.Gen.Pre_finite_inputs
import proofs.«179557_j45509473469000_2_alg».proof.Proof.RunP
import proofs.«179557_j45509473469000_2_alg».proof.Proof.ReadP
import proofs.«179557_j45509473469000_2_alg».proof.Proof.KRun
import proofs.«179557_j45509473469000_2_alg».proof.Proof.ChainD
import proofs.«179557_j45509473469000_2_alg».proof.Proof.RefDec
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with equal results: the kernel's result array holds the decoder of the reference's
    third-layer stage of the kernel's arguments; the reference's holds its last stage of its own arguments, which is the
    same decoder of the same stage once the arguments agree. -/
theorem algebraic : Cert.algebraic_KernelIdeal_ReferenceIdeal := by
  intro m ρ m' ρ' _ hagree
  refine ⟨fun c => Cert.KernelIdeal.ChainD.kval m c, ?_, ?_⟩
  · exact (θ_run Cert.KernelIdeal.defs _ _).mono (fun _ h c => ⟨(h c).1.trans (Cert.KernelIdeal.ChainD.out m ρ c), (h c).2⟩)
      (Cert.KernelIdeal.RunOut.run_out m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12, e13⟩ := hagree c
    rw [Cert.ReferenceIdeal.ReadP.val_main_v143_eq, Cert.ReferenceIdeal.RefDec.ref_dec, e0, e1, e2, e3, e4, e5, e6, e7, e8, e9, e10, e11, e12, e13,
      ← Cert.ReferenceIdeal.RefDec.bias64 _ Cert.KernelIdeal.Gen.shapeCasts_S64_S1x64,
      ← Cert.ReferenceIdeal.RefDec.bias128 _ Cert.KernelIdeal.Gen.shapeCasts_S128_S1x128,
      ← Cert.ReferenceIdeal.RefDec.bias256 _ Cert.KernelIdeal.Gen.shapeCasts_S256_S1x256]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
